-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S64x2048 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S64 : Shape := ⟨1, ![64]⟩
abbrev S8192x4096 : Shape := ⟨2, ![8192, 4096]⟩
abbrev S128 : Shape := ⟨1, ![128]⟩
abbrev S1x128 : Shape := ⟨2, ![1, 128]⟩
abbrev S8192x128 : Shape := ⟨2, ![8192, 128]⟩
abbrev S16384x64 : Shape := ⟨2, ![16384, 64]⟩
abbrev S512x1024 : Shape := ⟨2, ![512, 1024]⟩
abbrev S512x128 : Shape := ⟨2, ![512, 128]⟩
abbrev S64x1024 : Shape := ⟨2, ![64, 1024]⟩
abbrev S512x64 : Shape := ⟨2, ![512, 64]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S8192x4096, .f32⟩
  | .hbm, ⟨4, _⟩ => ⟨S128, .f32⟩
  | .hbm, ⟨5, _⟩ => ⟨S1x128, .f32⟩
  | .hbm, ⟨6, _⟩ => ⟨S8192x128, .f32⟩
  | .hbm, ⟨7, _⟩ => ⟨S16384x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S64x2048, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16384x2048_S8192x4096 : S16384x2048.ShapeCasts S8192x4096
  concatenates_S64_S64_S128_d0 : Shape.Concatenates [S64, S64] S128 0
  shapeCasts_S128_S1x128 : S128.ShapeCasts S1x128
  shapeCasts_S8192x128_S16384x64 : S8192x128.ShapeCasts S16384x64
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S64x2048_S64x1024_0_0 : ∀ a, (![0, 0] : Fin 2 → Nat) a + S64x1024.size a ≤ S64x2048.size a
  h_S64x1024 : 0 < S64x1024.numel
  inb_S64x2048_S64x1024_0_1024 : ∀ a, (![0, 1024] : Fin 2 → Nat) a + S64x1024.size a ≤ S64x2048.size a
  concatenates_S512x64_S512x64_S512x128_d1 : Shape.Concatenates [S512x64, S512x64] S512x128 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S512x128_o0_0_S512x64 : S512x128.Slices ![0, 0] S512x64
  reduces_S512x64_S512 : S512x64.Reduces [1] S512
  shapeCasts_S512_S512x1 : S512.ShapeCasts S512x1
  slices_S512x128_o0_64_S512x64 : S512x128.Slices ![0, 64] S512x64
  broadcasts_S512x1_S512x64 : S512x1.Broadcasts S512x64
  inb_S512x128_S512x128_0_0 : ∀ a, (![0, 0] : Fin 2 → Nat) a + S512x128.size a ≤ S512x128.size a
  h_S512x128 : 0 < S512x128.numel
  dot_S512x1024_S64x1024_S512x64_1_1_0_0_n_n_wf : DotDims.WF S512x1024 S64x1024 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x4096.size a
  hwx0_1 : ∀ i : grid0.Coords, EltTy.bits .f32 = 32 ∨ (Rect.block (s := S8192x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x4096.size a
  hwx0_2 : ∀ i : grid0.Coords, EltTy.bits .f32 = 32 ∨ (Rect.block (s := S8192x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S64x2048.size a
  hwx0_4 : ∀ i : grid0.Coords, EltTy.bits .f32 = 32 ∨ (Rect.block (s := S64x2048) S64x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S8192x128.size a
  hwx0_6 : ∀ i : grid0.Coords, EltTy.bits .f32 = 32 ∨ (Rect.block (s := S8192x128) S512x128.size (cc0_transform_6 i) (hinb0_6 i)).WholeWords (EltTy.packing .f32)

variable [Facts₀]

def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf

abbrev win0_0 : Pipeline.Window sig grid0 :=
  Pipeline.Window.ofSpec (Memref.whole main_call0_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x64, .f32⟩
  | .hbm, ⟨21, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.WordRouterBody.lean ====
/-
  The router kernel's body at one grid point, as a function of the blocks it reads.

  At a point the body holds four token blocks (512 rows of paired tokens, 1024 columns each: the low and high
  halves of the even token's features, then of the odd token's), the whole gate matrix (64 experts by 2048
  features, read as its low and its high 1024 columns) and the doubled bias row (128 lanes). It forms, per row,
  the even token's 64 logits and the odd token's 64 logits side by side, adds the bias, and normalises each
  group of 64 lanes by the exponentials of the logits less the group's maximum. The one store covers the whole
  512-by-128 output buffer, so what the buffer holds afterwards is that store's value, whatever it held before.
-/
import proofs.«112521_g76192719831303_cont_9to1_m_326_33_alg».proof.Proof.Gen.Kernel.Launch
import proofs.«112521_g76192719831303_cont_9to1_m_326_33_alg».proof.Proof.Gen.Kernel.Skeleton
import proofs.«112521_g76192719831303_cont_9to1_m_326_33_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole token block. -/
abbrev rTok : Rect S512x1024 := Rect.unit (s := S512x1024) ![0, 0] S512x1024.size inb_S512x1024_S512x1024_0_0
/-- The gate matrix's low 1024 columns, -/
abbrev rGateLo : Rect S64x2048 := Rect.unit (s := S64x2048) ![0, 0] S64x1024.size inb_S64x2048_S64x1024_0_0
/-- and its high 1024 columns. -/
abbrev rGateHi : Rect S64x2048 := Rect.unit (s := S64x2048) ![0, 1024] S64x1024.size inb_S64x2048_S64x1024_0_1024
/-- The whole bias row. -/
abbrev rBias : Rect S1x128 := Rect.unit (s := S1x128) ![0, 0] S1x128.size inb_S1x128_S1x128_0_0
/-- The whole output buffer. -/
abbrev rOut : Rect S512x128 := Rect.unit (s := S512x128) ![0, 0] S512x128.size inb_S512x128_S512x128_0_0

/-! ## What the body stores -/

/-- The biased logits of a block of paired tokens: lanes 0–63 the even token's, lanes 64–127 the odd token's. -/
def logits (xa xb xc xd : Vec F S512x1024 .f32) (g : Vec F S64x2048 .f32) (b : Vec F S1x128 .f32) : FVec F S512x128 .f32 :=
  k0_pay2 (View.ld xa rTok) (View.ld g rGateLo) (View.ld xb rTok) (View.ld g rGateHi)
    (View.ld xc rTok) (View.ld g rGateLo) (View.ld xd rTok) (View.ld g rGateHi) (View.ld b rBias)

/-- The value of the body's one store: the two normalised groups side by side. -/
def stored (xa xb xc xd : Vec F S512x1024 .f32) (g : Vec F S64x2048 .f32) (b : Vec F S1x128 .f32) : FVec F S512x128 .f32 :=
  k0_pay1
    (k0_pay3 (View.ld xa rTok) (View.ld g rGateLo) (View.ld xb rTok) (View.ld g rGateHi)
      (View.ld xc rTok) (View.ld g rGateLo) (View.ld xd rTok) (View.ld g rGateHi) (View.ld b rBias))
    (k0_pay4 (View.ld xa rTok) (View.ld g rGateLo) (View.ld xb rTok) (View.ld g rGateHi)
      (View.ld xc rTok) (View.ld g rGateLo) (View.ld xd rTok) (View.ld g rGateHi) (View.ld b rBias))
    (k0_pay5 (View.ld xa rTok) (View.ld g rGateLo) (View.ld xb rTok) (View.ld g rGateHi)
      (View.ld xc rTok) (View.ld g rGateLo) (View.ld xd rTok) (View.ld g rGateHi) (View.ld b rBias))

/-- The output buffer after the body: its one store, read back over the whole buffer. -/
def left (xa xb xc xd : Vec F S512x1024 .f32) (g : Vec F S64x2048 .f32) (b : Vec F S1x128 .f32) : Vec F S512x128 .f32 :=
  View.canon [⟨rOut, stored xa xb xc xd g b⟩]

/-- The store's rectangle is the whole buffer: every position is covered. -/
theorem covered (p : Vec F S512x128 .f32) (y : S512x128.Idx) :
    ∃ pc ∈ ([⟨rOut, p⟩] : List (View.Piece (Elt F) S512x128 .f32)), y ∈ pc.1.set :=
  View.cover_of_tiled [⟨rOut, p⟩] S512x128.size (by rfl) y

/-! ## The body's triple -/

set_option maxHeartbeats 1000000 in
/-- On whole staging memrefs — the six inputs' at the contents read, the output's at anything — the body runs to its
    return with the inputs' contents unchanged and the output's buffer at `left` of the inputs. -/
theorem body_triple (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S64x2048 .f32) (harg5 : arg5.IsWhole) (arg6 : Memref sig .tc .vmem S1x128 .f32) (harg6 : arg6.IsWhole)
    (arg7 : Memref sig .tc .vmem S512x128 .f32) (harg7 : arg7.IsWhole)
    (xa xb xc xd : Vec F S512x1024 .f32) (g : Vec F S64x2048 .f32) (b : Vec F S1x128 .f32) (K : PUnit → sProp 𝕄) :
    iprop(owns (c : Thread nD τ) arg1 fullShare xa ∗ owns (c : Thread nD τ) arg2 fullShare xb
        ∗ owns (c : Thread nD τ) arg3 fullShare xc ∗ owns (c : Thread nD τ) arg4 fullShare xd
        ∗ owns (c : Thread nD τ) arg5 fullShare g ∗ owns (c : Thread nD τ) arg6 fullShare b
        ∗ (∃ d, owns (c : Thread nD τ) arg7 fullShare d)
        ∗ (iprop(owns (c : Thread nD τ) arg1 fullShare xa ∗ owns (c : Thread nD τ) arg2 fullShare xb
            ∗ owns (c : Thread nD τ) arg3 fullShare xc ∗ owns (c : Thread nD τ) arg4 fullShare xd
            ∗ owns (c : Thread nD τ) arg5 fullShare g ∗ owns (c : Thread nD τ) arg6 fullShare b
            ∗ owns (c : Thread nD τ) arg7 fullShare (left xa xb xc xd g b)) -∗ K ⟨⟩))
      ⊢ wp frame (wpE (defs₀ (F := F)) Variants.none c none) E
          (cc0__router_kernel i arg1 harg1 arg2 harg2 arg3 harg3 arg4 harg4 arg5 harg5 arg6 harg6 arg7 harg7) K := by
  simp only [cc0__router_kernel_eq_skeleton]; unfold cc0__router_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (covered _)

end Cert.Kernel.Router

end
-- ==== Proof.WordRouterData.lean ====
/-
  The router kernel's pipeline on one core: what the region finds, what each window's block is at a grid point,
  and that the body, run at any point on the blocks the pipeline staged, leaves the output's buffer at the
  normalised logits of those blocks.

  Before the region the host views the token array as 8192 rows of paired tokens and doubles the bias into a row
  of 128 lanes; the gate matrix reaches the region as passed. Four of the region's six input windows read the one
  paired-token array: at point `t` they are the four 1024-column quarters of rows 512·t to 512·t + 511. The gate
  matrix and the bias row are staged whole, once, and found again at every later point.
-/
import proofs.«112521_g76192719831303_cont_9to1_m_326_33_alg».proof.Proof.WordRouterBody

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- Core `c`'s buffers when the region is entered: the launch contents after the three host operations before it. -/
abbrev atEntry0 (c : Dev nD) : Valuation τ sig (Elt F) := StableHlo.after (List.flatten [hostOps0]) (fun b => m (c, b))
/-- The same read at a reference of the core. -/
abbrev atEntry (c : Dev nD) (b : Ref sig .tc) : Buf (Elt F) ((c : Thread nD τ).loc b) := atEntry0 m c (Proc.devRef .tc b)

theorem before_fresh : (hostOps0 : List (HloOp τ sig (Elt F))).Forall fun op => op.fresh = ∅ := by
  simp only [List.Forall]; repeat' constructor
theorem behind_fresh : (hostOps1 : List (HloOp τ sig (Elt F))).Forall fun op => op.fresh = ∅ := by
  simp only [List.Forall]; repeat' constructor

/-- @main is the three host operations, the region, and the one host operation after it: from the launch contents it
    reduces to the region, continued by that last operation, at the contents `atEntry`. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The three operations before the region write the paired view, the doubled bias and its row: no argument. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- What the body leaves in the output's buffer at point `t`: the normalised logits of the point's blocks. -/
def leftAt (c : Dev nD) (t : Fin cfg0.N) : Vec F S512x128 .f32 :=
  left (blockAt m c 0 t) (blockAt m c 1 t) (blockAt m c 2 t) (blockAt m c 3 t) (blockAt m c 4 t) (blockAt m c 5 t)

/-! ## The proof data -/

/-- The pipeline's proof data on core `c`. The arrays are as the region finds them; after the body at point `t` every
    input's buffer still holds its block and the output's holds `leftAt`; the invariant is the scoped rest and the
    generator register, untouched; nothing is owed. The paired-token array is read by four windows: each holds a
    quarter of it (the two halves of each half of the full share); the gate matrix and the bias row, read by one window
    each, are held in full. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => leftAt m c t
  Φ _ := Pipeline.ΦA spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = leftAt m c t := by dsimp only [dats]

/-- Every input's current staging buffer holds the window's block when the body runs: fetched at this point, or — the
    gate matrix and the bias row after the first point — left in place by the body at the point before, the block
    index not having moved. -/
theorem found_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
theorem found_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
theorem found_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
theorem found_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)
theorem found_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [A_eq]; try rfl) t d).trans
    (by unfold Dat.fetched Dat.blockOf blockAt; rw [A_eq]; try rfl)
theorem found_5 (c : Dev nD) (t : Fin cfg0.N) (d) : (dats m 0 c).before 5 t d = blockAt m c 5 t :=
  ((dats m 0 c).before_in_eq_fetched 5 rfl (fun _ => rfl) (fun _ _ _ => rfl)
    (fun t => by rw [after_5]; unfold Dat.blockOf blockAt; rw [A_eq]; try rfl) t d).trans
    (by unfold Dat.fetched Dat.blockOf blockAt; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact body_at m c t

end Cert.Kernel.Router

end
-- ==== Proof.WordRouterRun.lean ====
/-
  The router kernel's run on the machine: every weakly fair execution of @main ends, and ends with the result buffer
  at the row-major view of what the region wrote and the three arguments as passed.

  Two things here are particular to this program. First, four input windows read ONE array (the paired-token view),
  so at the region's entry that array's buffer, held whole, is divided in four equal shares, one per window; nothing
  writes it, and each window's share comes back unchanged. Second, one host operation follows the region: it reads the
  array the region wrote (held in full by its one output window) and writes the result buffer, which bypassed the
  region; it runs holding just those two buffers.
-/
import proofs.«112521_g76192719831303_cont_9to1_m_326_33_alg».proof.Proof.WordRouterData
import Idealize.ShloMosaic.Lib.Pipeline.Kit

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The arrays, window by window -/

/-- The four references behind the seven windows' arrays. -/
theorem arrRefs_eq : Finset.univ.image (arrRef spec0) = [main_call0_v0, main_arg1, main_call0_v2, main_call0_v3].toFinset := by decide

/-- The proof data's arrays at contents `A`, window by window: each window's array whole, at the window's share. -/
theorem arrays_each (c : Dev nD) (A : (w : Fin cfg0.W) → Buf (Elt F) ((cfg0.win w).arr.view.loc (c.tc : Thread nD τ))) :
    ((dats m 0 c).arrays A : sProp 𝕄)
      = iprop((((c.tc : Thread nD τ).loc main_call0_v0) ↦{fullShare.left.left} A 0)
          ∗ (((c.tc : Thread nD τ).loc main_call0_v0) ↦{fullShare.left.right} A 1)
          ∗ (((c.tc : Thread nD τ).loc main_call0_v0) ↦{fullShare.right.left} A 2)
          ∗ (((c.tc : Thread nD τ).loc main_call0_v0) ↦{fullShare.right.right} A 3)
          ∗ (((c.tc : Thread nD τ).loc main_arg1) ↦{fullShare} A 4)
          ∗ (((c.tc : Thread nD τ).loc main_call0_v2) ↦{fullShare} A 5)
          ∗ (((c.tc : Thread nD τ).loc main_call0_v3) ↦{fullShare} A 6)) := by
  unfold Dat.arrays
  rw [bigSep_W0]
  rw [(arr_whole0 0).set_eq_univ, (arr_whole0 4).set_eq_univ, (arr_whole0 5).set_eq_univ, (arr_whole0 6).set_eq_univ]
  rfl

/-- The four buffers behind the arrays, each held whole at contents `V`, one by one. -/
theorem arrBufs_each (c : Dev nD) (V : (b : Ref sig .tc) → Buf (Elt F) ((c.tc : Thread nD τ).loc b)) :
    (arrBufs (Ix := Unit) (Name := ℕ) (U := UR sig nD τ) (Lvl := ℕ) spec0 c V : sProp 𝕄)
      = iprop((((c.tc : Thread nD τ).loc main_call0_v0) ↦{fullShare} V main_call0_v0)
          ∗ (((c.tc : Thread nD τ).loc main_arg1) ↦{fullShare} V main_arg1)
          ∗ (((c.tc : Thread nD τ).loc main_call0_v2) ↦{fullShare} V main_call0_v2)
          ∗ (((c.tc : Thread nD τ).loc main_call0_v3) ↦{fullShare} V main_call0_v3)) := by
  unfold arrBufs
  exact bigSep_eq_bigSepL_of_eq [main_call0_v0, main_arg1, main_call0_v2, main_call0_v3] arrRefs_eq (by decide) _

/-- ENTRY: the four buffers behind the arrays, each held whole, make the proof data's arrays at the contents the region
    finds — the paired-token array's buffer divided in four shares, the other three handed over as they are. -/
theorem entry_split (c : Dev nD) :
    (arrBufs (Ix := Unit) (Name := ℕ) (U := UR sig nD τ) (Lvl := ℕ) spec0 c (atEntry m c) : sProp 𝕄)
      ⊢ (dats m 0 c).arrays ((dats m 0 c).arrAt · 0) := by
  rw [arrays_each, arrBufs_each]
  iintro ⟨Hx, Hg, Hb, Ho⟩
  ihave Hx := (pointsTo_share (PosShare.mem_left_op_right fullShare)).1 $$ Hx
  icases Hx with ⟨Hl, Hr⟩
  ihave Hl := (pointsTo_share (PosShare.mem_left_op_right fullShare.left)).1 $$ Hl
  icases Hl with ⟨H0, H1⟩
  ihave Hr := (pointsTo_share (PosShare.mem_left_op_right fullShare.right)).1 $$ Hr
  icases Hr with ⟨H2, H3⟩
  isplitl [H0]; · iexact H0
  isplitl [H1]; · iexact H1
  isplitl [H2]; · iexact H2
  isplitl [H3]; · iexact H3
  isplitl [Hg]; · iexact Hg
  isplitl [Hb]; · iexact Hb
  iexact Ho

/-! ## The host operation after the region -/

/-- The two buffers the last host operation touches: the array the region wrote and the result. -/
def lastRefs : Finset (DevRef τ sig) := {Proc.devRef .tc main_call0_v3, Proc.devRef .tc main_v0}

/-- Core `c`'s buffers when the region is left: as it found them, but the written array at what the write-backs made it. -/
def atExit0 (c : Dev nD) : Valuation τ sig (Elt F) := by
  classical
  exact Function.update (atEntry0 m c) (Proc.devRef .tc main_call0_v3) ((dats m 0 c).arrAt 6 cfg0.N)

/-- And after the last host operation. -/
def atEnd0 (c : Dev nD) : Valuation τ sig (Elt F) := StableHlo.after (List.flatten [hostOps1]) (atExit0 m c)

/-- What the result buffer ends at. -/
def resultAt (c : Dev nD) : Buf (Elt F) ((c.tc : Thread nD τ).loc main_v0) := atEnd0 m c (Proc.devRef .tc main_v0)

theorem atExit0_written (c : Dev nD) : atExit0 m c (Proc.devRef .tc main_call0_v3) = (dats m 0 c).arrAt 6 cfg0.N := by
  unfold atExit0; exact Function.update_self ..

theorem atExit0_result (c : Dev nD) : atExit0 m c (Proc.devRef .tc main_v0) = atEntry m c main_v0 := by
  unfold atExit0; exact Function.update_of_ne (StableHlo.devRef_ne_of_ne (by decide)) ..

/-- The last operation writes the result only: the written array is as the region left it. -/
theorem atEnd0_written (c : Dev nD) : atEnd0 m c (Proc.devRef .tc main_call0_v3) = (dats m 0 c).arrAt 6 cfg0.N := by
  unfold atEnd0
  rw [StableHlo.after_of_forall_not_mem (b := Proc.devRef .tc main_call0_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))]
  exact atExit0_written m c

/-- The two buffers held at a valuation, one by one. -/
theorem held_lastRefs (c : Dev nD) (W : Valuation τ sig (Elt F)) :
    (StableHlo.held (c.tc : Thread nD τ) lastRefs W : sProp 𝕄)
      = iprop((((c.tc : Thread nD τ).loc main_call0_v3) ↦{fullShare} W (Proc.devRef .tc main_call0_v3))
          ∗ (((c.tc : Thread nD τ).loc main_v0) ↦{fullShare} W (Proc.devRef .tc main_v0))) := by
  unfold StableHlo.held lastRefs
  rw [bigSep_insert (by
    rw [Finset.mem_singleton]; exact StableHlo.devRef_ne_of_ne (by decide)), bigSep_singleton]
  rfl

/-- What bypassed the region and the last operation, and the result it wrote: the core's unscoped buffers that are no
    window's array, at the end. -/
def restAtEnd (c : Dev nD) : sProp 𝕄 :=
  iprop((((c.tc : Thread nD τ).loc main_arg0) ↦{fullShare} atEntry m c main_arg0)
    ∗ (((c.tc : Thread nD τ).loc main_arg2) ↦{fullShare} atEntry m c main_arg2)
    ∗ (((c.tc : Thread nD τ).loc main_call0_v1) ↦{fullShare} atEntry m c main_call0_v1)
    ∗ (((c.tc : Thread nD τ).loc main_v0) ↦{fullShare} resultAt m c))

set_option backward.isDefEq.respectTransparency.types false in
/-- AFTER THE REGION: holding the arrays as the region left them and the buffers that bypassed it, the last host
    operation runs on the written array and the result buffer, and hands everything back with the result written. -/
theorem after_region (c : Dev nD) (Q' : PUnit → sProp 𝕄) :
    iprop((iprop((dats m 0 c).arrays ((dats m 0 c).arrAt · cfg0.N) ∗ restAtEnd m c) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Prefetch.none spec0 c (atEntry m c))
      ⊢ wp frame (wpE (Pipeline.defs (pcfgs (F := F)) defs₀) (Variants.lift Variants.none) (c.tc : Thread nD τ) none) Set.univ
          (chain [StableHlo.seq hostOps1]) Q' := by
  rw [arrays_each, unscopedRestP_none, unscopedRest0_eq]
  unfold restAtEnd
  iintro ⟨Hk, Hb, ⟨A0, A1, A2, A3, A4, A5, A6⟩, ⟨R0, R2, R1, Ro⟩⟩
  ihave Hh : (StableHlo.held (c.tc : Thread nD τ) lastRefs (atExit0 m c) : sProp 𝕄) $$ [A6 Ro]
  · rw [held_lastRefs, atExit0_written, atExit0_result]
    isplitl [A6]; · iexact A6
    iexact Ro
  iapply (wp_seqs_then (pcfgs (F := F)) defs₀ Variants.none c lastRefs [] [hostOps1]
    (by
      intro ops hops op hop
      simp only [List.mem_cons, List.mem_nil_iff, or_false] at hops
      subst hops
      simp only [hostOps1, List.mem_cons, List.mem_nil_iff, or_false] at hop
      subst hop
      exact Finset.Subset.refl _)
    (by
      intro ops hops op hop
      simp only [List.mem_cons, List.mem_nil_iff, or_false] at hops
      subst hops
      exact (List.forall_iff_forall_mem.mp behind_fresh) op hop)
    (atExit0 m c)) $$ [Hb Hh]
  · isplitl [Hb]; · iexact Hb
    iexact Hh
  iintro ⟨Hb, Hh⟩
  ihave Hh := (Entails.of_eq (held_lastRefs c (StableHlo.after (List.flatten [hostOps1]) (atExit0 m c)))) $$ Hh
  icases Hh with ⟨A6, Ro⟩
  iapply (tail_ret _ _ _ c
    (iprop((((c.tc : Thread nD τ).loc main_call0_v0) ↦{fullShare.left.left} (dats m 0 c).arrAt 0 cfg0.N)
          ∗ (((c.tc : Thread nD τ).loc main_call0_v0) ↦{fullShare.left.right} (dats m 0 c).arrAt 1 cfg0.N)
          ∗ (((c.tc : Thread nD τ).loc main_call0_v0) ↦{fullShare.right.left} (dats m 0 c).arrAt 2 cfg0.N)
          ∗ (((c.tc : Thread nD τ).loc main_call0_v0) ↦{fullShare.right.right} (dats m 0 c).arrAt 3 cfg0.N)
          ∗ (((c.tc : Thread nD τ).loc main_arg1) ↦{fullShare} (dats m 0 c).arrAt 4 cfg0.N)
          ∗ (((c.tc : Thread nD τ).loc main_call0_v2) ↦{fullShare} (dats m 0 c).arrAt 5 cfg0.N)
          ∗ (((c.tc : Thread nD τ).loc main_call0_v3) ↦{fullShare} (dats m 0 c).arrAt 6 cfg0.N)))
    (boundary (c.tc : Thread nD τ))
    (iprop((((c.tc : Thread nD τ).loc main_arg0) ↦{fullShare} atEntry m c main_arg0)
      ∗ (((c.tc : Thread nD τ).loc main_arg2) ↦{fullShare} atEntry m c main_arg2)
      ∗ (((c.tc : Thread nD τ).loc main_call0_v1) ↦{fullShare} atEntry m c main_call0_v1)
      ∗ (((c.tc : Thread nD τ).loc main_v0) ↦{fullShare} resultAt m c))) Q')
  isplitl [Hk]; · iexact Hk
  isplitl [Hb]; · iexact Hb
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    rw [show StableHlo.after (List.flatten [hostOps1]) (atExit0 m c) (Proc.devRef .tc main_call0_v3) = (dats m 0 c).arrAt 6 cfg0.N from atEnd0_written m c]
    iexact A6
  isplitl [R0]; · iexact R0
  isplitl [R2]; · iexact R2
  isplitl [R1]; · iexact R1
  iexact Ro

/-! ## The run -/

/-- No table is prefetched: the admissible contents are the empty ones. -/
abbrev noTables : (p : Fin 1) → (pcfgs (F := F) p).Adm := fun p => (cfgs p).toPCfg_adm

set_option backward.isDefEq.respectTransparency.types false in
/-- At the compiled mesh, for any float values, from any memory with every semaphore at zero: every weakly fair execution
    of @main on the TensorCores terminates, nothing faulting, and every final state has the result buffer at `resultAt`
    — the last host operation's view of the array the region's write-backs made — and the three arguments as passed. -/
theorem run_main : θ_run defs (onTc (τ := τ) (main (F := F))) ⟨m, fun _ => 0, ρ⟩ (fun r => ∀ c : Dev nD,
      r.2.mem ((c.tc : Thread nD τ).loc main_v0) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_region_pf_tail (pcfgs (F := F)) noTables (dats m) () cellOf_inj (0 : Fin 1) winFacts₀0 (OwnSemFacts.none spec0) (PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := atEntry m) (hmain := main_around m Variants.none)
    (hsplit := entry_split m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (atEntry m c))
    (Z' := restAtEnd m)
    (hX := fun c => by
      iintro ⟨HU, -, -, -, Hp, -⟩; imodintro
      isplitl [Hp]; · iexists _; iexact Hp
      iexact HU)
    (hin := fun c => by
      rw [show (dats m 0 c).Φ 0 = ΦA spec0 c from rfl]; unfold ΦA
      iintro ⟨Hp, -, Hr⟩
      isplitl [Hr]; · iexact Hr
      iexact Hp)
    (hout := fun c => by
      rw [show (dats m 0 c).Φ (Fin.last cfg0.N) = ΦA spec0 c from rfl, ownSems0_none]; unfold ΦA
      iintro ⟨Hr, Hp⟩
      isplitl [Hp]; · iexact Hp
      isplitr; · iempintro
      iexact Hr)
    (htail := after_region m)
    (QY := fun c s => s.mem ((c.tc : Thread nD τ).loc main_v0) = resultAt m c
      ∧ s.mem ((c.tc : Thread nD τ).loc main_arg0) = atEntry m c main_arg0
      ∧ s.mem ((c.tc : Thread nD τ).loc main_arg2) = atEntry m c main_arg2)
    (hY := fun c s' => by
      unfold restAtEnd
      iintro ⟨-, ⟨R0, R2, -, Ro⟩, HSI⟩
      icombine HSI R0 gives %h0
      icombine HSI R2 gives %h2
      icombine HSI Ro gives %ho
      imodintro
      isplitr; · ipureintro; exact ⟨Buf.eq_of_forall_mem_univ ho, Buf.eq_of_forall_mem_univ h0, Buf.eq_of_forall_mem_univ h2⟩
      iexact HSI)
    (hQ := fun s h c => ⟨(h c).2.2.1, (h c).2.2.2.1.trans (entry_arg0 m c),
      ((h c).1 4).trans ((((dats m 0 c).arrAt_in 4 rfl _).trans (A_eq m c 4)).trans (entry_arg1 m c)),
      (h c).2.2.2.2.trans (entry_arg2 m c)⟩)

/-- The frame: every execution ends, and the arguments end as passed. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Router

end
-- ==== Proof.RouterBody.lean ====
/-
  The router kernel's body at one grid point, as a function of the blocks it reads.

  At a point the body holds four token blocks (512 rows of paired tokens, 1024 columns each: the low and high
  halves of the even token's features, then of the odd token's), the whole gate matrix (64 experts by 2048
  features, read as its low and its high 1024 columns) and the doubled bias row (128 lanes). It forms, per row,
  the even token's 64 logits and the odd token's 64 logits side by side, adds the bias, and normalises each
  group of 64 lanes by the exponentials of the logits less the group's maximum. The one store covers the whole
  512-by-128 output buffer, so what the buffer holds afterwards is that store's value, whatever it held before.
-/
import proofs.«112521_g76192719831303_cont_9to1_m_326_33_alg».proof.Proof.Gen.KernelIdeal.Launch
import proofs.«112521_g76192719831303_cont_9to1_m_326_33_alg».proof.Proof.Gen.KernelIdeal.Skeleton
import proofs.«112521_g76192719831303_cont_9to1_m_326_33_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole token block. -/
abbrev rTok : Rect S512x1024 := Rect.unit (s := S512x1024) ![0, 0] S512x1024.size inb_S512x1024_S512x1024_0_0
/-- The gate matrix's low 1024 columns, -/
abbrev rGateLo : Rect S64x2048 := Rect.unit (s := S64x2048) ![0, 0] S64x1024.size inb_S64x2048_S64x1024_0_0
/-- and its high 1024 columns. -/
abbrev rGateHi : Rect S64x2048 := Rect.unit (s := S64x2048) ![0, 1024] S64x1024.size inb_S64x2048_S64x1024_0_1024
/-- The whole bias row. -/
abbrev rBias : Rect S1x128 := Rect.unit (s := S1x128) ![0, 0] S1x128.size inb_S1x128_S1x128_0_0
/-- The whole output buffer. -/
abbrev rOut : Rect S512x128 := Rect.unit (s := S512x128) ![0, 0] S512x128.size inb_S512x128_S512x128_0_0

/-! ## What the body stores -/

/-- The biased logits of a block of paired tokens: lanes 0–63 the even token's, lanes 64–127 the odd token's. -/
def logits (xa xb xc xd : Vec F S512x1024 .f32) (g : Vec F S64x2048 .f32) (b : Vec F S1x128 .f32) : FVec F S512x128 .f32 :=
  k0_pay2 (View.ld xa rTok) (View.ld g rGateLo) (View.ld xb rTok) (View.ld g rGateHi)
    (View.ld xc rTok) (View.ld g rGateLo) (View.ld xd rTok) (View.ld g rGateHi) (View.ld b rBias)

/-- The value of the body's one store: the two normalised groups side by side. -/
def stored (xa xb xc xd : Vec F S512x1024 .f32) (g : Vec F S64x2048 .f32) (b : Vec F S1x128 .f32) : FVec F S512x128 .f32 :=
  k0_pay1
    (k0_pay3 (View.ld xa rTok) (View.ld g rGateLo) (View.ld xb rTok) (View.ld g rGateHi)
      (View.ld xc rTok) (View.ld g rGateLo) (View.ld xd rTok) (View.ld g rGateHi) (View.ld b rBias))
    (k0_pay4 (View.ld xa rTok) (View.ld g rGateLo) (View.ld xb rTok) (View.ld g rGateHi)
      (View.ld xc rTok) (View.ld g rGateLo) (View.ld xd rTok) (View.ld g rGateHi) (View.ld b rBias))
    (k0_pay5 (View.ld xa rTok) (View.ld g rGateLo) (View.ld xb rTok) (View.ld g rGateHi)
      (View.ld xc rTok) (View.ld g rGateLo) (View.ld xd rTok) (View.ld g rGateHi) (View.ld b rBias))

/-- The output buffer after the body: its one store, read back over the whole buffer. -/
def left (xa xb xc xd : Vec F S512x1024 .f32) (g : Vec F S64x2048 .f32) (b : Vec F S1x128 .f32) : Vec F S512x128 .f32 :=
  View.canon [⟨rOut, stored xa xb xc xd g b⟩]

/-- The store's rectangle is the whole buffer: every position is covered. -/
theorem covered (p : Vec F S512x128 .f32) (y : S512x128.Idx) :
    ∃ pc ∈ ([⟨rOut, p⟩] : List (View.Piece (Elt F) S512x128 .f32)), y ∈ pc.1.set :=
  View.cover_of_tiled [⟨rOut, p⟩] S512x128.size (by rfl) y

/-! ## The body's triple -/

set_option maxHeartbeats 1000000 in
/-- On whole staging memrefs — the six inputs' at the contents read, the output's at anything — the body runs to its
    return with the inputs' contents unchanged and the output's buffer at `left` of the inputs. -/
theorem body_triple (c : Dev nD) (E : Set ℕ) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x1024 .f32) (harg4 : arg4.IsWhole)
    (arg5 : Memref sig .tc .vmem S64x2048 .f32) (harg5 : arg5.IsWhole) (arg6 : Memref sig .tc .vmem S1x128 .f32) (harg6 : arg6.IsWhole)
    (arg7 : Memref sig .tc .vmem S512x128 .f32) (harg7 : arg7.IsWhole)
    (xa xb xc xd : Vec F S512x1024 .f32) (g : Vec F S64x2048 .f32) (b : Vec F S1x128 .f32) (K : PUnit → sProp 𝕄) :
    iprop(owns (c : Thread nD τ) arg1 fullShare xa ∗ owns (c : Thread nD τ) arg2 fullShare xb
        ∗ owns (c : Thread nD τ) arg3 fullShare xc ∗ owns (c : Thread nD τ) arg4 fullShare xd
        ∗ owns (c : Thread nD τ) arg5 fullShare g ∗ owns (c : Thread nD τ) arg6 fullShare b
        ∗ (∃ d, owns (c : Thread nD τ) arg7 fullShare d)
        ∗ (iprop(owns (c : Thread nD τ) arg1 fullShare xa ∗ owns (c : Thread nD τ) arg2 fullShare xb
            ∗ owns (c : Thread nD τ) arg3 fullShare xc ∗ owns (c : Thread nD τ) arg4 fullShare xd
            ∗ owns (c : Thread nD τ) arg5 fullShare g ∗ owns (c : Thread nD τ) arg6 fullShare b
            ∗ owns (c : Thread nD τ) arg7 fullShare (left xa xb xc xd g b)) -∗ K ⟨⟩))
      ⊢ wp frame (wpE (defs₀ (F := F)) Variants.none c none) E
          (cc0__router_kernel i arg1 harg1 arg2 harg2 arg3 harg3 arg4 harg4 arg5 harg5 arg6 harg6 arg7 harg7) K := by
  simp only [cc0__router_kernel_eq_skeleton]; unfold cc0__router_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (covered _)

end Cert.KernelIdeal.Router

end
-- ==== Proof.RouterData.lean ====
/-
  The router kernel's pipeline on one core: what the region finds, what each window's block is at a grid point,
  and that the body, run at any point on the blocks the pipeline staged, leaves the output's buffer at the
  normalised logits of those blocks.

  Before the region the host views the token array as 8192 rows of paired tokens and doubles the bias into a row
  of 128 lanes; the gate matrix reaches the region as passed. Four of the region's six input windows read the one
  paired-token array: at point `t` they are the four 1024-column quarters of rows 512·t to 512·t + 511. The gate
  matrix and the bias row are staged whole, once, and found again at every later point.
-/
import proofs.«112521_g76192719831303_cont_9to1_m_326_33_alg».proof.Proof.RouterBody

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- Core `c`'s buffers when the region is entered: the launch contents after the three host operations before it. -/
abbrev atEntry0 (c : Dev nD) : Valuation τ sig (Elt F) := StableHlo.after (List.flatten [hostOps0]) (fun b => m (c, b))
/-- The same read at a reference of the core. -/
abbrev atEntry (c : Dev nD) (b : Ref sig .tc) : Buf (Elt F) ((c : Thread nD τ).loc b) := atEntry0 m c (Proc.devRef .tc b)

theorem before_fresh : (hostOps0 : List (HloOp τ sig (Elt F))).Forall fun op => op.fresh = ∅ := by
  simp only [List.Forall]; repeat' constructor
theorem behind_fresh : (hostOps1 : List (HloOp τ sig (Elt F))).Forall fun op => op.fresh = ∅ := by
  simp only [List.Forall]; repeat' constructor

/-- @main is the three host operations, the region, and the one host operation after it: from the launch contents it
    reduces to the region, continued by that last operation, at the contents `atEntry`. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The three operations before the region write the paired view, the doubled bias and its row: no argument. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- What the body leaves in the output's buffer at point `t`: the normalised logits of the point's blocks. -/
def leftAt (c : Dev nD) (t : Fin cfg0.N) : Vec F S512x128 .f32 :=
  left (blockAt m c 0 t) (blockAt m c 1 t) (blockAt m c 2 t) (blockAt m c 3 t) (blockAt m c 4 t) (blockAt m c 5 t)

/-! ## The proof data -/

/-- The pipeline's proof data on core `c`. The arrays are as the region finds them; after the body at point `t` every
    input's buffer still holds its block and the output's holds `leftAt`; the invariant is the scoped rest and the
    generator register, untouched; nothing is owed. The paired-token array is read by four windows: each holds a
    quarter of it (the two halves of each half of the full share); the gate matrix and the bias row, read by one window
    each, are held in full. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => leftAt m c t
  Φ _ := Pipeline.ΦA spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = leftAt m c t := by dsimp only [dats]

/-- Every input's current staging buffer holds the window's block when the body runs: fetched at this point, or — the
    gate matrix and the bias row after the first point — left in place by the body at the point before, the block
    index not having moved. -/
theorem found_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
theorem found_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
theorem found_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
theorem found_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)
theorem found_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [A_eq]; try rfl) t d).trans
    (by unfold Dat.fetched Dat.blockOf blockAt; rw [A_eq]; try rfl)
theorem found_5 (c : Dev nD) (t : Fin cfg0.N) (d) : (dats m 0 c).before 5 t d = blockAt m c 5 t :=
  ((dats m 0 c).before_in_eq_fetched 5 rfl (fun _ => rfl) (fun _ _ _ => rfl)
    (fun t => by rw [after_5]; unfold Dat.blockOf blockAt; rw [A_eq]; try rfl) t d).trans
    (by unfold Dat.fetched Dat.blockOf blockAt; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact body_at m c t

end Cert.KernelIdeal.Router

end
-- ==== Proof.RouterRun.lean ====
/-
  The router kernel's run on the machine: every weakly fair execution of @main ends, and ends with the result buffer
  at the row-major view of what the region wrote and the three arguments as passed.

  Two things here are particular to this program. First, four input windows read ONE array (the paired-token view),
  so at the region's entry that array's buffer, held whole, is divided in four equal shares, one per window; nothing
  writes it, and each window's share comes back unchanged. Second, one host operation follows the region: it reads the
  array the region wrote (held in full by its one output window) and writes the result buffer, which bypassed the
  region; it runs holding just those two buffers.
-/
import proofs.«112521_g76192719831303_cont_9to1_m_326_33_alg».proof.Proof.RouterData
import Idealize.ShloMosaic.Lib.Pipeline.Kit

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The arrays, window by window -/

/-- The four references behind the seven windows' arrays. -/
theorem arrRefs_eq : Finset.univ.image (arrRef spec0) = [main_call0_v0, main_arg1, main_call0_v2, main_call0_v3].toFinset := by decide

/-- The proof data's arrays at contents `A`, window by window: each window's array whole, at the window's share. -/
theorem arrays_each (c : Dev nD) (A : (w : Fin cfg0.W) → Buf (Elt F) ((cfg0.win w).arr.view.loc (c.tc : Thread nD τ))) :
    ((dats m 0 c).arrays A : sProp 𝕄)
      = iprop((((c.tc : Thread nD τ).loc main_call0_v0) ↦{fullShare.left.left} A 0)
          ∗ (((c.tc : Thread nD τ).loc main_call0_v0) ↦{fullShare.left.right} A 1)
          ∗ (((c.tc : Thread nD τ).loc main_call0_v0) ↦{fullShare.right.left} A 2)
          ∗ (((c.tc : Thread nD τ).loc main_call0_v0) ↦{fullShare.right.right} A 3)
          ∗ (((c.tc : Thread nD τ).loc main_arg1) ↦{fullShare} A 4)
          ∗ (((c.tc : Thread nD τ).loc main_call0_v2) ↦{fullShare} A 5)
          ∗ (((c.tc : Thread nD τ).loc main_call0_v3) ↦{fullShare} A 6)) := by
  unfold Dat.arrays
  rw [bigSep_W0]
  rw [(arr_whole0 0).set_eq_univ, (arr_whole0 4).set_eq_univ, (arr_whole0 5).set_eq_univ, (arr_whole0 6).set_eq_univ]
  rfl

/-- The four buffers behind the arrays, each held whole at contents `V`, one by one. -/
theorem arrBufs_each (c : Dev nD) (V : (b : Ref sig .tc) → Buf (Elt F) ((c.tc : Thread nD τ).loc b)) :
    (arrBufs (Ix := Unit) (Name := ℕ) (U := UR sig nD τ) (Lvl := ℕ) spec0 c V : sProp 𝕄)
      = iprop((((c.tc : Thread nD τ).loc main_call0_v0) ↦{fullShare} V main_call0_v0)
          ∗ (((c.tc : Thread nD τ).loc main_arg1) ↦{fullShare} V main_arg1)
          ∗ (((c.tc : Thread nD τ).loc main_call0_v2) ↦{fullShare} V main_call0_v2)
          ∗ (((c.tc : Thread nD τ).loc main_call0_v3) ↦{fullShare} V main_call0_v3)) := by
  unfold arrBufs
  exact bigSep_eq_bigSepL_of_eq [main_call0_v0, main_arg1, main_call0_v2, main_call0_v3] arrRefs_eq (by decide) _

/-- ENTRY: the four buffers behind the arrays, each held whole, make the proof data's arrays at the contents the region
    finds — the paired-token array's buffer divided in four shares, the other three handed over as they are. -/
theorem entry_split (c : Dev nD) :
    (arrBufs (Ix := Unit) (Name := ℕ) (U := UR sig nD τ) (Lvl := ℕ) spec0 c (atEntry m c) : sProp 𝕄)
      ⊢ (dats m 0 c).arrays ((dats m 0 c).arrAt · 0) := by
  rw [arrays_each, arrBufs_each]
  iintro ⟨Hx, Hg, Hb, Ho⟩
  ihave Hx := (pointsTo_share (PosShare.mem_left_op_right fullShare)).1 $$ Hx
  icases Hx with ⟨Hl, Hr⟩
  ihave Hl := (pointsTo_share (PosShare.mem_left_op_right fullShare.left)).1 $$ Hl
  icases Hl with ⟨H0, H1⟩
  ihave Hr := (pointsTo_share (PosShare.mem_left_op_right fullShare.right)).1 $$ Hr
  icases Hr with ⟨H2, H3⟩
  isplitl [H0]; · iexact H0
  isplitl [H1]; · iexact H1
  isplitl [H2]; · iexact H2
  isplitl [H3]; · iexact H3
  isplitl [Hg]; · iexact Hg
  isplitl [Hb]; · iexact Hb
  iexact Ho

/-! ## The host operation after the region -/

/-- The two buffers the last host operation touches: the array the region wrote and the result. -/
def lastRefs : Finset (DevRef τ sig) := {Proc.devRef .tc main_call0_v3, Proc.devRef .tc main_v0}

/-- Core `c`'s buffers when the region is left: as it found them, but the written array at what the write-backs made it. -/
def atExit0 (c : Dev nD) : Valuation τ sig (Elt F) := by
  classical
  exact Function.update (atEntry0 m c) (Proc.devRef .tc main_call0_v3) ((dats m 0 c).arrAt 6 cfg0.N)

/-- And after the last host operation. -/
def atEnd0 (c : Dev nD) : Valuation τ sig (Elt F) := StableHlo.after (List.flatten [hostOps1]) (atExit0 m c)

/-- What the result buffer ends at. -/
def resultAt (c : Dev nD) : Buf (Elt F) ((c.tc : Thread nD τ).loc main_v0) := atEnd0 m c (Proc.devRef .tc main_v0)

theorem atExit0_written (c : Dev nD) : atExit0 m c (Proc.devRef .tc main_call0_v3) = (dats m 0 c).arrAt 6 cfg0.N := by
  unfold atExit0; exact Function.update_self ..

theorem atExit0_result (c : Dev nD) : atExit0 m c (Proc.devRef .tc main_v0) = atEntry m c main_v0 := by
  unfold atExit0; exact Function.update_of_ne (StableHlo.devRef_ne_of_ne (by decide)) ..

/-- The last operation writes the result only: the written array is as the region left it. -/
theorem atEnd0_written (c : Dev nD) : atEnd0 m c (Proc.devRef .tc main_call0_v3) = (dats m 0 c).arrAt 6 cfg0.N := by
  unfold atEnd0
  rw [StableHlo.after_of_forall_not_mem (b := Proc.devRef .tc main_call0_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))]
  exact atExit0_written m c

/-- The two buffers held at a valuation, one by one. -/
theorem held_lastRefs (c : Dev nD) (W : Valuation τ sig (Elt F)) :
    (StableHlo.held (c.tc : Thread nD τ) lastRefs W : sProp 𝕄)
      = iprop((((c.tc : Thread nD τ).loc main_call0_v3) ↦{fullShare} W (Proc.devRef .tc main_call0_v3))
          ∗ (((c.tc : Thread nD τ).loc main_v0) ↦{fullShare} W (Proc.devRef .tc main_v0))) := by
  unfold StableHlo.held lastRefs
  rw [bigSep_insert (by
    rw [Finset.mem_singleton]; exact StableHlo.devRef_ne_of_ne (by decide)), bigSep_singleton]
  rfl

/-- What bypassed the region and the last operation, and the result it wrote: the core's unscoped buffers that are no
    window's array, at the end. -/
def restAtEnd (c : Dev nD) : sProp 𝕄 :=
  iprop((((c.tc : Thread nD τ).loc main_arg0) ↦{fullShare} atEntry m c main_arg0)
    ∗ (((c.tc : Thread nD τ).loc main_arg2) ↦{fullShare} atEntry m c main_arg2)
    ∗ (((c.tc : Thread nD τ).loc main_call0_v1) ↦{fullShare} atEntry m c main_call0_v1)
    ∗ (((c.tc : Thread nD τ).loc main_v0) ↦{fullShare} resultAt m c))

set_option backward.isDefEq.respectTransparency.types false in
/-- AFTER THE REGION: holding the arrays as the region left them and the buffers that bypassed it, the last host
    operation runs on the written array and the result buffer, and hands everything back with the result written. -/
theorem after_region (c : Dev nD) (Q' : PUnit → sProp 𝕄) :
    iprop((iprop((dats m 0 c).arrays ((dats m 0 c).arrAt · cfg0.N) ∗ restAtEnd m c) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Prefetch.none spec0 c (atEntry m c))
      ⊢ wp frame (wpE (Pipeline.defs (pcfgs (F := F)) defs₀) (Variants.lift Variants.none) (c.tc : Thread nD τ) none) Set.univ
          (chain [StableHlo.seq hostOps1]) Q' := by
  rw [arrays_each, unscopedRestP_none, unscopedRest0_eq]
  unfold restAtEnd
  iintro ⟨Hk, Hb, ⟨A0, A1, A2, A3, A4, A5, A6⟩, ⟨R0, R2, R1, Ro⟩⟩
  ihave Hh : (StableHlo.held (c.tc : Thread nD τ) lastRefs (atExit0 m c) : sProp 𝕄) $$ [A6 Ro]
  · rw [held_lastRefs, atExit0_written, atExit0_result]
    isplitl [A6]; · iexact A6
    iexact Ro
  iapply (wp_seqs_then (pcfgs (F := F)) defs₀ Variants.none c lastRefs [] [hostOps1]
    (by
      intro ops hops op hop
      simp only [List.mem_cons, List.mem_nil_iff, or_false] at hops
      subst hops
      simp only [hostOps1, List.mem_cons, List.mem_nil_iff, or_false] at hop
      subst hop
      exact Finset.Subset.refl _)
    (by
      intro ops hops op hop
      simp only [List.mem_cons, List.mem_nil_iff, or_false] at hops
      subst hops
      exact (List.forall_iff_forall_mem.mp behind_fresh) op hop)
    (atExit0 m c)) $$ [Hb Hh]
  · isplitl [Hb]; · iexact Hb
    iexact Hh
  iintro ⟨Hb, Hh⟩
  ihave Hh := (Entails.of_eq (held_lastRefs c (StableHlo.after (List.flatten [hostOps1]) (atExit0 m c)))) $$ Hh
  icases Hh with ⟨A6, Ro⟩
  iapply (tail_ret _ _ _ c
    (iprop((((c.tc : Thread nD τ).loc main_call0_v0) ↦{fullShare.left.left} (dats m 0 c).arrAt 0 cfg0.N)
          ∗ (((c.tc : Thread nD τ).loc main_call0_v0) ↦{fullShare.left.right} (dats m 0 c).arrAt 1 cfg0.N)
          ∗ (((c.tc : Thread nD τ).loc main_call0_v0) ↦{fullShare.right.left} (dats m 0 c).arrAt 2 cfg0.N)
          ∗ (((c.tc : Thread nD τ).loc main_call0_v0) ↦{fullShare.right.right} (dats m 0 c).arrAt 3 cfg0.N)
          ∗ (((c.tc : Thread nD τ).loc main_arg1) ↦{fullShare} (dats m 0 c).arrAt 4 cfg0.N)
          ∗ (((c.tc : Thread nD τ).loc main_call0_v2) ↦{fullShare} (dats m 0 c).arrAt 5 cfg0.N)
          ∗ (((c.tc : Thread nD τ).loc main_call0_v3) ↦{fullShare} (dats m 0 c).arrAt 6 cfg0.N)))
    (boundary (c.tc : Thread nD τ))
    (iprop((((c.tc : Thread nD τ).loc main_arg0) ↦{fullShare} atEntry m c main_arg0)
      ∗ (((c.tc : Thread nD τ).loc main_arg2) ↦{fullShare} atEntry m c main_arg2)
      ∗ (((c.tc : Thread nD τ).loc main_call0_v1) ↦{fullShare} atEntry m c main_call0_v1)
      ∗ (((c.tc : Thread nD τ).loc main_v0) ↦{fullShare} resultAt m c))) Q')
  isplitl [Hk]; · iexact Hk
  isplitl [Hb]; · iexact Hb
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    rw [show StableHlo.after (List.flatten [hostOps1]) (atExit0 m c) (Proc.devRef .tc main_call0_v3) = (dats m 0 c).arrAt 6 cfg0.N from atEnd0_written m c]
    iexact A6
  isplitl [R0]; · iexact R0
  isplitl [R2]; · iexact R2
  isplitl [R1]; · iexact R1
  iexact Ro

/-! ## The run -/

/-- No table is prefetched: the admissible contents are the empty ones. -/
abbrev noTables : (p : Fin 1) → (pcfgs (F := F) p).Adm := fun p => (cfgs p).toPCfg_adm

set_option backward.isDefEq.respectTransparency.types false in
/-- At the compiled mesh, for any float values, from any memory with every semaphore at zero: every weakly fair execution
    of @main on the TensorCores terminates, nothing faulting, and every final state has the result buffer at `resultAt`
    — the last host operation's view of the array the region's write-backs made — and the three arguments as passed. -/
theorem run_main : θ_run defs (onTc (τ := τ) (main (F := F))) ⟨m, fun _ => 0, ρ⟩ (fun r => ∀ c : Dev nD,
      r.2.mem ((c.tc : Thread nD τ).loc main_v0) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_region_pf_tail (pcfgs (F := F)) noTables (dats m) () cellOf_inj (0 : Fin 1) winFacts₀0 (OwnSemFacts.none spec0) (PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := atEntry m) (hmain := main_around m Variants.none)
    (hsplit := entry_split m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (atEntry m c))
    (Z' := restAtEnd m)
    (hX := fun c => by
      iintro ⟨HU, -, -, -, Hp, -⟩; imodintro
      isplitl [Hp]; · iexists _; iexact Hp
      iexact HU)
    (hin := fun c => by
      rw [show (dats m 0 c).Φ 0 = ΦA spec0 c from rfl]; unfold ΦA
      iintro ⟨Hp, -, Hr⟩
      isplitl [Hr]; · iexact Hr
      iexact Hp)
    (hout := fun c => by
      rw [show (dats m 0 c).Φ (Fin.last cfg0.N) = ΦA spec0 c from rfl, ownSems0_none]; unfold ΦA
      iintro ⟨Hr, Hp⟩
      isplitl [Hp]; · iexact Hp
      isplitr; · iempintro
      iexact Hr)
    (htail := after_region m)
    (QY := fun c s => s.mem ((c.tc : Thread nD τ).loc main_v0) = resultAt m c
      ∧ s.mem ((c.tc : Thread nD τ).loc main_arg0) = atEntry m c main_arg0
      ∧ s.mem ((c.tc : Thread nD τ).loc main_arg2) = atEntry m c main_arg2)
    (hY := fun c s' => by
      unfold restAtEnd
      iintro ⟨-, ⟨R0, R2, -, Ro⟩, HSI⟩
      icombine HSI R0 gives %h0
      icombine HSI R2 gives %h2
      icombine HSI Ro gives %ho
      imodintro
      isplitr; · ipureintro; exact ⟨Buf.eq_of_forall_mem_univ ho, Buf.eq_of_forall_mem_univ h0, Buf.eq_of_forall_mem_univ h2⟩
      iexact HSI)
    (hQ := fun s h c => ⟨(h c).2.2.1, (h c).2.2.2.1.trans (entry_arg0 m c),
      ((h c).1 4).trans ((((dats m 0 c).arrAt_in 4 rfl _).trans (A_eq m c 4)).trans (entry_arg1 m c)),
      (h c).2.2.2.2.trans (entry_arg2 m c)⟩)

/-- The frame: every execution ends, and the arguments end as passed. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Router

end
-- ==== Proof.RouterSpec.lean ====
/-
  The gate a router computes, as one function of its three arguments over the extended reals.

  For token `n` and expert `e` the logit is the inner product of the token's 2048 features with the expert's row of the
  gate matrix, plus the expert's bias. A row of 64 logits is normalised by the exponentials of the logits less the row's
  maximum — the maximum taken as a fold of `max` from minus infinity, the normaliser a plain sum: this is the form both
  programs compute, so no law about the exponential or the quotient is needed to compare them. Two small laws are: a sum
  over 2048 positions is the sum over the first 1024 plus the sum over the last 1024 (addition of extended reals is
  commutative and associative: no finiteness is asked), and taking `max` of the fold's starting value with the fold changes
  nothing.
-/
import Idealize.ShloMosaic.PureOps.Ideal
import Idealize.ShloMosaic.PureOps.Ideal.Laws
import Idealize.ShloMosaic.Lib.ValueIdx
import Mathlib.Data.Finset.Fold
import Mathlib.Algebra.BigOperators.Fin

noncomputable section

namespace Cert.RouterSpec

open Idealize.ShloMosaic Idealize.ShloMosaic.ValueIdx

/-- Minus infinity, as the single-precision word both programs start their maximum from. -/
abbrev floorVal : EReal := Ideal.ofBits .f32 0xFF800000#32

/-- The maximum of a row of 64 extended reals, folded from minus infinity. -/
def rowTop (f : Fin 64 → EReal) : EReal := (Finset.univ : Finset (Fin 64)).fold max floorVal f

/-- A row of 64 extended reals normalised: the exponential of each entry less the row's maximum, over the sum of those. -/
def softRow (f : Fin 64 → EReal) (e : Fin 64) : EReal :=
  Ideal.div (Ideal.exp (f e - rowTop f)) (∑ e' : Fin 64, Ideal.exp (f e' - rowTop f))

/-- The biased logit of token `n` for expert `e`. -/
def logit (x : (⟨2, ![16384, 2048]⟩ : Shape).Idx → EReal) (g : (⟨2, ![64, 2048]⟩ : Shape).Idx → EReal)
    (b : (⟨1, ![64]⟩ : Shape).Idx → EReal) (n : Fin 16384) (e : Fin 64) : EReal :=
  (∑ k : Fin 2048, x (ix2 n k) * g (ix2 e k)) + b (ix1 e)

/-- The router's gate: each token's row of logits, normalised. -/
def gate (x : (⟨2, ![16384, 2048]⟩ : Shape).Idx → EReal) (g : (⟨2, ![64, 2048]⟩ : Shape).Idx → EReal)
    (b : (⟨1, ![64]⟩ : Shape).Idx → EReal) : (⟨2, ![16384, 64]⟩ : Shape).Idx → EReal :=
  fun i => softRow (logit x g b (i 0)) (i 1)

/-- The fold already dominates its starting value. -/
theorem max_floor_rowTop (f : Fin 64 → EReal) : max floorVal (rowTop f) = rowTop f :=
  max_eq_right ((Finset.le_fold_max floorVal).mpr (Or.inl le_rfl))

/-- A sum over 2048 positions is the sum over the first 1024 plus the sum over the last 1024. -/
theorem sum_two_halves {M : Type*} [AddCommMonoid M] (f : Fin 2048 → M) :
    ∑ k : Fin 2048, f k
      = ∑ k : Fin 1024, f ⟨k.val, by have := k.isLt; omega⟩ + ∑ k : Fin 1024, f ⟨1024 + k.val, by have := k.isLt; omega⟩ :=
  Fin.sum_univ_add (a := 1024) (b := 1024) f

end Cert.RouterSpec

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.RouterLanes.lean ====
/-
  The body's values read at coordinates, over the extended reals.

  Row `r` of the body's 512-by-128 logit block holds, in lanes 0–63, for each expert `e` the inner product of the even
  token's low features with the gate row's low half plus that of its high features with the gate row's high half, plus
  the bias lane; lanes 64–127 hold the same for the odd token. Each group of 64 lanes is then normalised as a row
  (`softRow`): its maximum is a fold of `max` from minus infinity, its normaliser a plain sum.
-/
import proofs.«112521_g76192719831303_cont_9to1_m_326_33_alg».proof.Proof.RouterBody
import proofs.«112521_g76192719831303_cont_9to1_m_326_33_alg».proof.Proof.RouterSpec
import proofs.«112521_g76192719831303_cont_9to1_m_326_33_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Router

open Cert.KernelIdeal Cert.KernelIdeal.Gen
open Idealize.ShloMosaic Idealize.ShloMosaic.ValueIdx
open Cert.RouterSpec Cert.LibKeepdims

/-! ## The matrix product, the row sum and the row maximum at coordinates -/

theorem dot_lhs_row (j : S512x64.Idx) (q : dot_S512x1024_S64x1024_S512x64_1_1_0_0_n_n.contr.Idx) : (dot_S512x1024_S64x1024_S512x64_1_1_0_0_n_n.lhsIdx j q 0).val = (j 0).val := by
  unfold DotDims.lhsIdx
  rw [dif_neg (show ¬(0 : Fin S512x1024.rank) ∈ dot_S512x1024_S64x1024_S512x64_1_1_0_0_n_n.lhsBatch by decide), dif_pos (show (0 : Fin S512x1024.rank) ∈ dot_S512x1024_S64x1024_S512x64_1_1_0_0_n_n.lhsNonContracting by decide)]
  rfl
theorem dot_lhs_col (j : S512x64.Idx) (q : dot_S512x1024_S64x1024_S512x64_1_1_0_0_n_n.contr.Idx) : (dot_S512x1024_S64x1024_S512x64_1_1_0_0_n_n.lhsIdx j q 1).val = (q ⟨0, by decide⟩).val :=
  dot_S512x1024_S64x1024_S512x64_1_1_0_0_n_n.lhsIdx_val_of_single rfl j q
theorem dot_rhs_row (j : S512x64.Idx) (q : dot_S512x1024_S64x1024_S512x64_1_1_0_0_n_n.contr.Idx) : (dot_S512x1024_S64x1024_S512x64_1_1_0_0_n_n.rhsIdx j q 0).val = (j 1).val := by
  unfold DotDims.rhsIdx
  rw [dif_neg (show ¬(0 : Fin S64x1024.rank) ∈ dot_S512x1024_S64x1024_S512x64_1_1_0_0_n_n.rhsBatch by decide), dif_pos (show (0 : Fin S64x1024.rank) ∈ dot_S512x1024_S64x1024_S512x64_1_1_0_0_n_n.rhsNonContracting by decide)]
  rfl
theorem dot_rhs_col (j : S512x64.Idx) (q : dot_S512x1024_S64x1024_S512x64_1_1_0_0_n_n.contr.Idx) : (dot_S512x1024_S64x1024_S512x64_1_1_0_0_n_n.rhsIdx j q 1).val = (q ⟨0, by decide⟩).val :=
  dot_S512x1024_S64x1024_S512x64_1_1_0_0_n_n.rhsIdx_val_of_single rfl j q

/-- A 512-by-1024 block times the transpose of a 64-by-1024 block, accumulated from zero: at row `r` and column `e`
    the sum over the 1024 shared positions of the products. -/
theorem matmul_at (A : FVec Ideal S512x1024 .f32) (B : FVec Ideal S64x1024 .f32) (r : Fin 512) (e : Fin 64) :
    matmul dot_S512x1024_S64x1024_S512x64_1_1_0_0_n_n none A B (constant (F := Ideal) S512x64 .f32 0x00000000#32) (ix2 r e)
      = ∑ k : Fin 1024, A (ix2 r k) * B (ix2 e k) := by
  simp only [matmul]
  rw [Ideal.matmul_constant_zero_apply, ← Equiv.sum_comp (ValueIdx.contrEquiv1 dot_S512x1024_S64x1024_S512x64_1_1_0_0_n_n 1024 rfl rfl).symm]
  refine Finset.sum_congr rfl fun k _ => ?_
  have hk := ValueIdx.contrEquiv1_symm_val dot_S512x1024_S64x1024_S512x64_1_1_0_0_n_n 1024 rfl rfl k
  have el : dot_S512x1024_S64x1024_S512x64_1_1_0_0_n_n.lhsIdx (ix2 r e) ((ValueIdx.contrEquiv1 dot_S512x1024_S64x1024_S512x64_1_1_0_0_n_n 1024 rfl rfl).symm k) = ix2 r k := funext fun a => Fin.ext (by
    match a with
    | ⟨0, _⟩ => exact dot_lhs_row _ _
    | ⟨1, _⟩ => exact (dot_lhs_col _ _).trans hk)
  have er : dot_S512x1024_S64x1024_S512x64_1_1_0_0_n_n.rhsIdx (ix2 r e) ((ValueIdx.contrEquiv1 dot_S512x1024_S64x1024_S512x64_1_1_0_0_n_n 1024 rfl rfl).symm k) = ix2 e k := funext fun a => Fin.ext (by
    match a with
    | ⟨0, _⟩ => exact dot_rhs_row _ _
    | ⟨1, _⟩ => exact (dot_rhs_col _ _).trans hk)
  rw [el, er]

/-- The sum along the lanes of a 512-by-64 block, from zero, at row `r`. -/
theorem rowSum_at (v : FVec Ideal S512x64 .f32) (r : Fin 512) :
    multiReduction .add [1] S512 v 0x00000000#32 reduces_S512x64_S512 (.inl rfl) rfl (ix1 r) = ∑ e : Fin 64, v (ix2 r e) := by
  refine (Ideal.multiReduction_add_single v 0x00000000#32 reduces_S512x64_S512 (.inl rfl) rfl (ix1 r)).trans ?_
  refine Finset.sum_congr rfl fun e _ => ?_
  exact congrArg v (funext fun a => Fin.ext (by match a with | ⟨0, _⟩ => rfl | ⟨1, _⟩ => rfl))

/-- The maximum along the lanes of a 512-by-64 block, from minus infinity, at row `r`. -/
theorem rowMax_at (v : FVec Ideal S512x64 .f32) (r : Fin 512) :
    multiReduction .maximumf [1] S512 v 0xFF800000#32 reduces_S512x64_S512 (.inl rfl) rfl (ix1 r) = rowTop (fun e => v (ix2 r e)) := by
  refine (Ideal.multiReduction_maximumf_single v 0xFF800000#32 reduces_S512x64_S512 (.inl rfl) rfl (ix1 r)).trans ?_
  unfold rowTop
  refine congrArg (fun f => (Finset.univ : Finset (Fin 64)).fold max floorVal f) (funext fun e => ?_)
  exact congrArg v (funext fun a => Fin.ext (by match a with | ⟨0, _⟩ => rfl | ⟨1, _⟩ => rfl))

/-! ## Slices, the kept column, and the two normalisation steps -/

/-- Lanes 0–63 of a 512-by-128 block. -/
abbrev lanesLo (L : FVec Ideal S512x128 .f32) : FVec Ideal S512x64 .f32 :=
  extractStridedSlice S512x64 ![0, 0] L slices_S512x128_o0_0_S512x64
/-- Lanes 64–127. -/
abbrev lanesHi (L : FVec Ideal S512x128 .f32) : FVec Ideal S512x64 .f32 :=
  extractStridedSlice S512x64 ![0, 64] L slices_S512x128_o0_64_S512x64

theorem lanesLo_at (L : FVec Ideal S512x128 .f32) (r : Fin 512) (e : Fin 64) :
    lanesLo L (ix2 r e) = L (ix2 r (⟨e.val, by have := e.isLt; omega⟩ : Fin 128)) :=
  slice2_axis1_apply 0 L slices_S512x128_o0_0_S512x64 r e ⟨e.val, by have := e.isLt; omega⟩ (Nat.zero_add _).symm

theorem lanesHi_at (L : FVec Ideal S512x128 .f32) (r : Fin 512) (e : Fin 64) :
    lanesHi L (ix2 r e) = L (ix2 r (⟨64 + e.val, by have := e.isLt; omega⟩ : Fin 128)) :=
  slice2_axis1_apply 64 L slices_S512x128_o0_64_S512x64 r e ⟨64 + e.val, by have := e.isLt; omega⟩ rfl

/-- A per-row value kept as a column and spread over the 64 lanes reads, at row `r` and any lane, the row's value. -/
theorem kept_at (w : FVec Ideal S512 .f32) (r : Fin 512) (e : Fin 64) :
    broadcastTo S512x64 (shapeCast S512x1 w shapeCasts_S512_S512x1) broadcasts_S512x1_S512x64 (ix2 r e) = w (ix1 r) := by
  rw [broadcastTo_a1_ab_apply, shapeCast_a_a1_apply]

/-- A 512-by-64 block less each row's maximum, exponentiated. -/
abbrev shifted (M : FVec Ideal S512x64 .f32) : FVec Ideal S512x64 .f32 :=
  exp (subf M (broadcastTo S512x64 (shapeCast S512x1
    (multiReduction .maximumf [1] S512 M 0xFF800000#32 reduces_S512x64_S512 (.inl rfl) rfl) shapeCasts_S512_S512x1) broadcasts_S512x1_S512x64))

theorem shifted_at (M : FVec Ideal S512x64 .f32) (r : Fin 512) (e : Fin 64) :
    shifted M (ix2 r e) = Ideal.exp (M (ix2 r e) - rowTop (fun e' => M (ix2 r e'))) := by
  show Ideal.exp (M (ix2 r e) - broadcastTo S512x64 (shapeCast S512x1
    (multiReduction .maximumf [1] S512 M 0xFF800000#32 reduces_S512x64_S512 (.inl rfl) rfl) shapeCasts_S512_S512x1) broadcasts_S512x1_S512x64 (ix2 r e)) = _
  rw [kept_at, rowMax_at]

/-- A 512-by-64 block over each row's sum. -/
abbrev normed (E : FVec Ideal S512x64 .f32) : FVec Ideal S512x64 .f32 :=
  divf E (broadcastTo S512x64 (shapeCast S512x1
    (multiReduction .add [1] S512 E 0x00000000#32 reduces_S512x64_S512 (.inl rfl) rfl) shapeCasts_S512_S512x1) broadcasts_S512x1_S512x64)

theorem normed_at (E : FVec Ideal S512x64 .f32) (r : Fin 512) (e : Fin 64) :
    normed E (ix2 r e) = Ideal.div (E (ix2 r e)) (∑ e' : Fin 64, E (ix2 r e')) := by
  show Ideal.div (E (ix2 r e)) (broadcastTo S512x64 (shapeCast S512x1
    (multiReduction .add [1] S512 E 0x00000000#32 reduces_S512x64_S512 (.inl rfl) rfl) shapeCasts_S512_S512x1) broadcasts_S512x1_S512x64 (ix2 r e)) = _
  rw [kept_at, rowSum_at]

/-- The two steps together normalise each row. -/
theorem normed_shifted_at (M : FVec Ideal S512x64 .f32) (r : Fin 512) (e : Fin 64) :
    normed (shifted M) (ix2 r e) = softRow (fun e' => M (ix2 r e')) e := by
  rw [normed_at, shifted_at]
  unfold softRow
  refine congrArg (Ideal.div _) (Finset.sum_congr rfl fun e' _ => ?_)
  exact shifted_at M r e'

/-! ## What the body stores, at coordinates -/

/-- The stored block is the two groups of lanes of the logits, each normalised by rows, side by side. -/
theorem stored_eq (xa xb xc xd : Vec Ideal S512x1024 .f32) (g : Vec Ideal S64x2048 .f32) (b : Vec Ideal S1x128 .f32) :
    stored xa xb xc xd g b
      = concatenate S512x128 1 [⟨S512x64, normed (shifted (lanesLo (logits xa xb xc xd g b)))⟩,
          ⟨S512x64, normed (shifted (lanesHi (logits xa xb xc xd g b)))⟩] concatenates_S512x64_S512x64_S512x128_d1 := rfl

theorem stored_even (xa xb xc xd : Vec Ideal S512x1024 .f32) (g : Vec Ideal S64x2048 .f32) (b : Vec Ideal S1x128 .f32)
    (r : Fin 512) (e : Fin 64) :
    stored xa xb xc xd g b (ix2 r (⟨e.val, by have := e.isLt; omega⟩ : Fin 128))
      = softRow (fun e' => logits xa xb xc xd g b (ix2 r (⟨e'.val, by have := e'.isLt; omega⟩ : Fin 128))) e := by
  rw [stored_eq]
  refine (concatenate_pair_apply_left (t := S512x128) (s₁ := S512x64) (s₂ := S512x64) (1 : Fin 2) _ _ concatenates_S512x64_S512x64_S512x128_d1
    (ix2 r (⟨e.val, by have := e.isLt; omega⟩ : Fin 128)) rfl (ix2 r e)
    (fun b => by match b with | ⟨0, _⟩ => rfl | ⟨1, _⟩ => rfl)).trans ?_
  rw [normed_shifted_at]
  exact congrArg (fun f => softRow f e) (funext fun e' => lanesLo_at _ r e')

theorem stored_odd (xa xb xc xd : Vec Ideal S512x1024 .f32) (g : Vec Ideal S64x2048 .f32) (b : Vec Ideal S1x128 .f32)
    (r : Fin 512) (e : Fin 64) :
    stored xa xb xc xd g b (ix2 r (⟨64 + e.val, by have := e.isLt; omega⟩ : Fin 128))
      = softRow (fun e' => logits xa xb xc xd g b (ix2 r (⟨64 + e'.val, by have := e'.isLt; omega⟩ : Fin 128))) e := by
  rw [stored_eq]
  refine (concatenate_pair_apply_right (t := S512x128) (s₁ := S512x64) (s₂ := S512x64) (1 : Fin 2) _ _ concatenates_S512x64_S512x64_S512x128_d1
    (ix2 r (⟨64 + e.val, by have := e.isLt; omega⟩ : Fin 128)) rfl rfl (ix2 r e)
    (fun b hb => by match b with | ⟨0, _⟩ => rfl | ⟨1, _⟩ => exact absurd rfl hb)
    (by show e.val + 64 = 64 + e.val; omega)).trans ?_
  rw [normed_shifted_at]
  exact congrArg (fun f => softRow f e) (funext fun e' => lanesHi_at _ r e')

/-! ## The logits at coordinates -/

theorem zeros2 : (![0, 0] : Fin 2 → Nat) = fun _ => 0 := funext fun a => by fin_cases a <;> rfl

/-- A token block and the bias row are loaded whole. -/
theorem ld_tok (x : Vec Ideal S512x1024 .f32) : View.ld x rTok = x := View.ld_unit_zero zeros2 _ x
theorem ld_bias (b : Vec Ideal S1x128 .f32) : View.ld b rBias = b := View.ld_unit_zero zeros2 _ b

/-- The gate matrix's low columns as loaded: column `k` of the load is column `k` of the matrix, -/
theorem ld_gateLo_at (g : Vec Ideal S64x2048 .f32) (e : Fin 64) (k : Fin 1024) :
    View.ld g rGateLo (ix2 e k) = g (ix2 e (⟨k.val, by have := k.isLt; omega⟩ : Fin 2048)) := by
  show g (rGateLo.emb (ix2 e k)) = _
  refine congrArg g (funext fun a => Fin.ext ?_)
  match a with
  | ⟨0, _⟩ => show 0 + 1 * e.val = e.val; omega
  | ⟨1, _⟩ => show 0 + 1 * k.val = k.val; omega

/-- and of its high columns column `1024 + k`. -/
theorem ld_gateHi_at (g : Vec Ideal S64x2048 .f32) (e : Fin 64) (k : Fin 1024) :
    View.ld g rGateHi (ix2 e k) = g (ix2 e (⟨1024 + k.val, by have := k.isLt; omega⟩ : Fin 2048)) := by
  show g (rGateHi.emb (ix2 e k)) = _
  refine congrArg g (funext fun a => Fin.ext ?_)
  match a with
  | ⟨0, _⟩ => show 0 + 1 * e.val = e.val; omega
  | ⟨1, _⟩ => show 1024 + 1 * k.val = 1024 + k.val; omega

/-- The logit block's lanes 0–63 over its nine loads: the first two products' sum plus the bias lane. -/
theorem pay2_even (v0 v4 v9 v13 : FVec Ideal S512x1024 .f32) (v2 v6 v11 v15 : FVec Ideal S64x1024 .f32) (v19 : FVec Ideal S1x128 .f32)
    (r : Fin 512) (e : Fin 64) :
    k0_pay2 v0 v2 v4 v6 v9 v11 v13 v15 v19 (ix2 r (⟨e.val, by have := e.isLt; omega⟩ : Fin 128))
      = (∑ k : Fin 1024, v0 (ix2 r k) * v2 (ix2 e k) + ∑ k : Fin 1024, v4 (ix2 r k) * v6 (ix2 e k))
          + v19 (ix2 (0 : Fin 1) (⟨e.val, by have := e.isLt; omega⟩ : Fin 128)) := by
  unfold k0_pay2
  rw [addf_apply]
  refine congrArg₂ (· + ·) ?_ ?_
  · refine (concatenate_pair_apply_left (t := S512x128) (s₁ := S512x64) (s₂ := S512x64) (1 : Fin 2) _ _ concatenates_S512x64_S512x64_S512x128_d1
      (ix2 r (⟨e.val, by have := e.isLt; omega⟩ : Fin 128)) rfl (ix2 r e)
      (fun b => by match b with | ⟨0, _⟩ => rfl | ⟨1, _⟩ => rfl)).trans ?_
    rw [addf_apply, shapeCast_self, shapeCast_self, matmul_at, matmul_at]
  · rw [broadcastTo_1b_ab_apply, shapeCast_self]

/-- Lanes 64–127: the last two products' sum plus the bias lane. -/
theorem pay2_odd (v0 v4 v9 v13 : FVec Ideal S512x1024 .f32) (v2 v6 v11 v15 : FVec Ideal S64x1024 .f32) (v19 : FVec Ideal S1x128 .f32)
    (r : Fin 512) (e : Fin 64) :
    k0_pay2 v0 v2 v4 v6 v9 v11 v13 v15 v19 (ix2 r (⟨64 + e.val, by have := e.isLt; omega⟩ : Fin 128))
      = (∑ k : Fin 1024, v9 (ix2 r k) * v11 (ix2 e k) + ∑ k : Fin 1024, v13 (ix2 r k) * v15 (ix2 e k))
          + v19 (ix2 (0 : Fin 1) (⟨64 + e.val, by have := e.isLt; omega⟩ : Fin 128)) := by
  unfold k0_pay2
  rw [addf_apply]
  refine congrArg₂ (· + ·) ?_ ?_
  · refine (concatenate_pair_apply_right (t := S512x128) (s₁ := S512x64) (s₂ := S512x64) (1 : Fin 2) _ _ concatenates_S512x64_S512x64_S512x128_d1
      (ix2 r (⟨64 + e.val, by have := e.isLt; omega⟩ : Fin 128)) rfl rfl (ix2 r e)
      (fun b hb => by match b with | ⟨0, _⟩ => rfl | ⟨1, _⟩ => exact absurd rfl hb)
      (by show e.val + 64 = 64 + e.val; omega)).trans ?_
    rw [addf_apply, shapeCast_self, shapeCast_self, matmul_at, matmul_at]
  · rw [broadcastTo_1b_ab_apply, shapeCast_self]

/-- The even token's logits in row `r`, from the blocks the body holds. -/
theorem logits_even (xa xb xc xd : Vec Ideal S512x1024 .f32) (g : Vec Ideal S64x2048 .f32) (b : Vec Ideal S1x128 .f32)
    (r : Fin 512) (e : Fin 64) :
    logits xa xb xc xd g b (ix2 r (⟨e.val, by have := e.isLt; omega⟩ : Fin 128))
      = (∑ k : Fin 1024, xa (ix2 r k) * g (ix2 e (⟨k.val, by have := k.isLt; omega⟩ : Fin 2048))
          + ∑ k : Fin 1024, xb (ix2 r k) * g (ix2 e (⟨1024 + k.val, by have := k.isLt; omega⟩ : Fin 2048)))
        + b (ix2 (0 : Fin 1) (⟨e.val, by have := e.isLt; omega⟩ : Fin 128)) := by
  unfold logits
  rw [pay2_even, ld_tok, ld_tok, ld_bias]
  refine congrArg₂ (· + ·) (congrArg₂ (· + ·) (Finset.sum_congr rfl fun k _ => ?_) (Finset.sum_congr rfl fun k _ => ?_)) rfl
  · rw [ld_gateLo_at]
  · rw [ld_gateHi_at]

/-- The odd token's. -/
theorem logits_odd (xa xb xc xd : Vec Ideal S512x1024 .f32) (g : Vec Ideal S64x2048 .f32) (b : Vec Ideal S1x128 .f32)
    (r : Fin 512) (e : Fin 64) :
    logits xa xb xc xd g b (ix2 r (⟨64 + e.val, by have := e.isLt; omega⟩ : Fin 128))
      = (∑ k : Fin 1024, xc (ix2 r k) * g (ix2 e (⟨k.val, by have := k.isLt; omega⟩ : Fin 2048))
          + ∑ k : Fin 1024, xd (ix2 r k) * g (ix2 e (⟨1024 + k.val, by have := k.isLt; omega⟩ : Fin 2048)))
        + b (ix2 (0 : Fin 1) (⟨64 + e.val, by have := e.isLt; omega⟩ : Fin 128)) := by
  unfold logits
  rw [pay2_odd, ld_tok, ld_tok, ld_bias]
  refine congrArg₂ (· + ·) (congrArg₂ (· + ·) (Finset.sum_congr rfl fun k _ => ?_) (Finset.sum_congr rfl fun k _ => ?_)) rfl
  · rw [ld_gateLo_at]
  · rw [ld_gateHi_at]

/-- The output buffer after the body is the stored block. -/
theorem left_eq (xa xb xc xd : Vec Ideal S512x1024 .f32) (g : Vec Ideal S64x2048 .f32) (b : Vec Ideal S1x128 .f32) :
    left xa xb xc xd g b = stored xa xb xc xd g b := by
  unfold left
  exact View.canon_unit_zero zeros2 _ _

end Cert.KernelIdeal.Router

end
-- ==== Proof.RouterArray.lean ====
/-
  The array the region writes, as one function of the arrays it finds — and of the program's arguments.

  At grid point `t` the four token windows are the four 1024-column quarters of rows 512·t … 512·t + 511 of the
  paired-token array, the gate matrix and the bias row are whole, and the output window is rows 512·t … 512·t + 511 of the
  written array; the sixteen points' blocks tile it. So row `R` of the written array holds, in lanes 0–63, the normalised
  logits of the token in the row's first 2048 columns, and in lanes 64–127 those of the token in its last 2048 columns.
  The paired-token array is the token array viewed row-major with two tokens per row, the bias row the bias twice; and the
  result is the written array viewed row-major with one token per row. Hence the result's row `n` is token `n`'s gate.
-/
import proofs.«112521_g76192719831303_cont_9to1_m_326_33_alg».proof.Proof.RouterRun
import proofs.«112521_g76192719831303_cont_9to1_m_326_33_alg».proof.Proof.RouterLanes

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.RouterSpec

/-! ## The written array from the arrays the region finds -/

/-- The logits of the token in the first 2048 columns of paired row `R`, -/
def evenLogit (P : S8192x4096.Idx → EReal) (g : S64x2048.Idx → EReal) (B : S1x128.Idx → EReal) (R : Fin 8192) (e : Fin 64) : EReal :=
  (∑ k : Fin 1024, P (ix2 R (⟨k.val, by have := k.isLt; omega⟩ : Fin 4096)) * g (ix2 e (⟨k.val, by have := k.isLt; omega⟩ : Fin 2048))
    + ∑ k : Fin 1024, P (ix2 R (⟨1024 + k.val, by have := k.isLt; omega⟩ : Fin 4096)) * g (ix2 e (⟨1024 + k.val, by have := k.isLt; omega⟩ : Fin 2048)))
  + B (ix2 (0 : Fin 1) (⟨e.val, by have := e.isLt; omega⟩ : Fin 128))

/-- and of the token in its last 2048 columns. -/
def oddLogit (P : S8192x4096.Idx → EReal) (g : S64x2048.Idx → EReal) (B : S1x128.Idx → EReal) (R : Fin 8192) (e : Fin 64) : EReal :=
  (∑ k : Fin 1024, P (ix2 R (⟨2048 + k.val, by have := k.isLt; omega⟩ : Fin 4096)) * g (ix2 e (⟨k.val, by have := k.isLt; omega⟩ : Fin 2048))
    + ∑ k : Fin 1024, P (ix2 R (⟨3072 + k.val, by have := k.isLt; omega⟩ : Fin 4096)) * g (ix2 e (⟨1024 + k.val, by have := k.isLt; omega⟩ : Fin 2048)))
  + B (ix2 (0 : Fin 1) (⟨64 + e.val, by have := e.isLt; omega⟩ : Fin 128))

/-- The written array: each row's two groups of 64 lanes, normalised. -/
def paired (P : S8192x4096.Idx → EReal) (g : S64x2048.Idx → EReal) (B : S1x128.Idx → EReal) : S8192x128.Idx → EReal := fun j =>
  if h : (j 1).val < 64 then softRow (evenLogit P g B ⟨(j 0).val, idx2_lt0 j⟩) ⟨(j 1).val, h⟩
  else softRow (oddLogit P g B ⟨(j 0).val, idx2_lt0 j⟩) ⟨(j 1).val - 64, by have := idx2_lt1 j; omega⟩

variable (m : (ℓ : Loc nD τ sig) → Buf (Elt Ideal) ℓ)

/-- The three arrays the region's input windows read, as the region finds them. -/
def tokensIn (c : Dev nD) : S8192x4096.Idx → EReal := atEntry m c main_call0_v0
def gateIn (c : Dev nD) : S64x2048.Idx → EReal := atEntry m c main_arg1
def biasIn (c : Dev nD) : S1x128.Idx → EReal := atEntry m c main_call0_v2

/-! ## The blocks at a point -/

theorem point_lt (t : Fin cfg0.N) : t.val < 16 := lt_of_lt_of_eq t.isLt N_0

/-- The printed index maps, decided over the grid: every token window and the output sit at block row `t`, the four token
    windows at block columns 0, 1, 2, 3, and the gate matrix and the bias row at block (0, 0). -/
theorem point_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = t.val ∧ win0_2.index t (1 : Fin 2) = 2
    ∧ win0_3.index t (0 : Fin 2) = t.val ∧ win0_3.index t (1 : Fin 2) = 3
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of point `t`'s blocks is paired row 512·t + r. -/
def rowAt (t : Fin cfg0.N) (r : Fin 512) : Fin 8192 := ⟨512 * t.val + r.val, by have := point_lt t; have := r.isLt; omega⟩

theorem tok0_at (c : Dev nD) (t : Fin cfg0.N) (r : Fin 512) (k : Fin 1024) :
    blockAt m c 0 t (ix2 r k) = tokensIn m c (ix2 (rowAt t r) (⟨k.val, by have := k.isLt; omega⟩ : Fin 4096)) := by
  obtain ⟨e00, e01, -⟩ := point_facts t
  show atEntry m c main_call0_v0 (((cfg0.win 0).blk t).view.emb (ix2 r k)) = _
  refine congrArg (atEntry m c main_call0_v0) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

theorem tok1_at (c : Dev nD) (t : Fin cfg0.N) (r : Fin 512) (k : Fin 1024) :
    blockAt m c 1 t (ix2 r k) = tokensIn m c (ix2 (rowAt t r) (⟨1024 + k.val, by have := k.isLt; omega⟩ : Fin 4096)) := by
  obtain ⟨-, -, e10, e11, -⟩ := point_facts t
  show atEntry m c main_call0_v0 (((cfg0.win 1).blk t).view.emb (ix2 r k)) = _
  refine congrArg (atEntry m c main_call0_v0) (funext fun a => Fin.ext ?_)
  match a with
  | ⟨0, _⟩ => show win0_1.index t (0 : Fin 2) * 512 + 1 * r.val = 512 * t.val + r.val; omega
  | ⟨1, _⟩ => show win0_1.index t (1 : Fin 2) * 1024 + 1 * k.val = 1024 + k.val; omega

theorem tok2_at (c : Dev nD) (t : Fin cfg0.N) (r : Fin 512) (k : Fin 1024) :
    blockAt m c 2 t (ix2 r k) = tokensIn m c (ix2 (rowAt t r) (⟨2048 + k.val, by have := k.isLt; omega⟩ : Fin 4096)) := by
  obtain ⟨-, -, -, -, e20, e21, -⟩ := point_facts t
  show atEntry m c main_call0_v0 (((cfg0.win 2).blk t).view.emb (ix2 r k)) = _
  refine congrArg (atEntry m c main_call0_v0) (funext fun a => Fin.ext ?_)
  match a with
  | ⟨0, _⟩ => show win0_2.index t (0 : Fin 2) * 512 + 1 * r.val = 512 * t.val + r.val; omega
  | ⟨1, _⟩ => show win0_2.index t (1 : Fin 2) * 1024 + 1 * k.val = 2048 + k.val; omega

theorem tok3_at (c : Dev nD) (t : Fin cfg0.N) (r : Fin 512) (k : Fin 1024) :
    blockAt m c 3 t (ix2 r k) = tokensIn m c (ix2 (rowAt t r) (⟨3072 + k.val, by have := k.isLt; omega⟩ : Fin 4096)) := by
  obtain ⟨-, -, -, -, -, -, e30, e31, -⟩ := point_facts t
  show atEntry m c main_call0_v0 (((cfg0.win 3).blk t).view.emb (ix2 r k)) = _
  refine congrArg (atEntry m c main_call0_v0) (funext fun a => Fin.ext ?_)
  match a with
  | ⟨0, _⟩ => show win0_3.index t (0 : Fin 2) * 512 + 1 * r.val = 512 * t.val + r.val; omega
  | ⟨1, _⟩ => show win0_3.index t (1 : Fin 2) * 1024 + 1 * k.val = 3072 + k.val; omega

theorem gate_at (c : Dev nD) (t : Fin cfg0.N) (e : Fin 64) (k : Fin 2048) :
    blockAt m c 4 t (ix2 e k) = gateIn m c (ix2 e k) := by
  obtain ⟨-, -, -, -, -, -, -, -, e40, e41, -⟩ := point_facts t
  show atEntry m c main_arg1 (((cfg0.win 4).blk t).view.emb (ix2 e k)) = _
  refine congrArg (atEntry m c main_arg1) (funext fun a => Fin.ext ?_)
  match a with
  | ⟨0, _⟩ => show win0_4.index t (0 : Fin 2) * 64 + 1 * e.val = e.val; omega
  | ⟨1, _⟩ => show win0_4.index t (1 : Fin 2) * 2048 + 1 * k.val = k.val; omega

theorem bias_at (c : Dev nD) (t : Fin cfg0.N) (u : Fin 1) (l : Fin 128) :
    blockAt m c 5 t (ix2 u l) = biasIn m c (ix2 u l) := by
  obtain ⟨-, -, -, -, -, -, -, -, -, -, e50, e51, -⟩ := point_facts t
  show atEntry m c main_call0_v2 (((cfg0.win 5).blk t).view.emb (ix2 u l)) = _
  refine congrArg (atEntry m c main_call0_v2) (funext fun a => Fin.ext ?_)
  match a with
  | ⟨0, _⟩ => show win0_5.index t (0 : Fin 2) * 1 + 1 * u.val = u.val; omega
  | ⟨1, _⟩ => show win0_5.index t (1 : Fin 2) * 128 + 1 * l.val = l.val; omega

/-! ## What a point writes back, and the written array -/

/-- Point `t`'s stored block, lanes 0–63 of row `r`: the written array's function at paired row 512·t + r. -/
theorem stored_even_at (c : Dev nD) (t : Fin cfg0.N) (r : Fin 512) (e : Fin 64) :
    stored (blockAt m c 0 t) (blockAt m c 1 t) (blockAt m c 2 t) (blockAt m c 3 t) (blockAt m c 4 t) (blockAt m c 5 t) (ix2 r (⟨e.val, by have := e.isLt; omega⟩ : Fin 128))
      = paired (tokensIn m c) (gateIn m c) (biasIn m c) (ix2 (rowAt t r) (⟨e.val, by have := e.isLt; omega⟩ : Fin 128)) := by
  refine (stored_even (blockAt m c 0 t) (blockAt m c 1 t) (blockAt m c 2 t) (blockAt m c 3 t) (blockAt m c 4 t) (blockAt m c 5 t) r e).trans ?_
  unfold paired
  rw [dif_pos (show ((ix2 (rowAt t r) (⟨e.val, by have := e.isLt; omega⟩ : Fin 128) : S8192x128.Idx) 1).val < 64 from e.isLt)]
  refine congrArg₂ softRow (funext fun e' => ?_) (Fin.ext rfl)
  refine (logits_even (blockAt m c 0 t) (blockAt m c 1 t) (blockAt m c 2 t) (blockAt m c 3 t) (blockAt m c 4 t) (blockAt m c 5 t) r e').trans ?_
  unfold evenLogit
  refine congrArg₂ (· + ·) (congrArg₂ (· + ·) (Finset.sum_congr rfl fun k _ => ?_) (Finset.sum_congr rfl fun k _ => ?_)) ?_
  · rw [tok0_at, gate_at]
  · rw [tok1_at, gate_at]
  · exact bias_at m c t 0 _

/-- Lanes 64–127. -/
theorem stored_odd_at (c : Dev nD) (t : Fin cfg0.N) (r : Fin 512) (e : Fin 64) :
    stored (blockAt m c 0 t) (blockAt m c 1 t) (blockAt m c 2 t) (blockAt m c 3 t) (blockAt m c 4 t) (blockAt m c 5 t) (ix2 r (⟨64 + e.val, by have := e.isLt; omega⟩ : Fin 128))
      = paired (tokensIn m c) (gateIn m c) (biasIn m c) (ix2 (rowAt t r) (⟨64 + e.val, by have := e.isLt; omega⟩ : Fin 128)) := by
  refine (stored_odd (blockAt m c 0 t) (blockAt m c 1 t) (blockAt m c 2 t) (blockAt m c 3 t) (blockAt m c 4 t) (blockAt m c 5 t) r e).trans ?_
  unfold paired
  rw [dif_neg (show ¬ ((ix2 (rowAt t r) (⟨64 + e.val, by have := e.isLt; omega⟩ : Fin 128) : S8192x128.Idx) 1).val < 64 from by
    show ¬ (64 + e.val < 64); omega)]
  refine congrArg₂ softRow (funext fun e' => ?_) (Fin.ext (by show e.val = 64 + e.val - 64; omega))
  refine (logits_odd (blockAt m c 0 t) (blockAt m c 1 t) (blockAt m c 2 t) (blockAt m c 3 t) (blockAt m c 4 t) (blockAt m c 5 t) r e').trans ?_
  unfold oddLogit
  refine congrArg₂ (· + ·) (congrArg₂ (· + ·) (Finset.sum_congr rfl fun k _ => ?_) (Finset.sum_congr rfl fun k _ => ?_)) ?_
  · rw [tok2_at, gate_at]
  · rw [tok3_at, gate_at]
  · exact bias_at m c t 0 _

/-- WHAT POINT `t` WRITES BACK is block `t` of the written array's function. -/
theorem written_at (c : Dev nD) (t : Fin cfg0.N) :
    (dats m 0 c).flushed 6 t = ((cfg0.win 6).blk t).view.read (Elt Ideal) (paired (tokensIn m c) (gateIn m c) (biasIn m c)) := by
  show (cfg0.win 6).cut (grid0.coords t) ((dats m 0 c).after 6 t) = _
  rw [after_6]
  unfold leftAt
  rw [left_eq]
  obtain ⟨-, -, -, -, -, -, -, -, -, -, -, -, e60, e61⟩ := point_facts t
  funext y
  obtain ⟨r, l, rfl⟩ : ∃ (r : Fin 512) (l : Fin 128), y = ix2 r l := ⟨y 0, y 1, eq_ix2 y⟩
  have hR : ((cfg0.win 6).blk t).view.read (Elt Ideal) (paired (tokensIn m c) (gateIn m c) (biasIn m c)) (ix2 r l)
      = paired (tokensIn m c) (gateIn m c) (biasIn m c) (ix2 (rowAt t r) l) := by
    show paired (tokensIn m c) (gateIn m c) (biasIn m c) (((cfg0.win 6).blk t).view.emb (ix2 r l)) = _
    refine congrArg (paired (tokensIn m c) (gateIn m c) (biasIn m c)) (funext fun a => Fin.ext ?_)
    match a with
    | ⟨0, _⟩ => show win0_6.index t (0 : Fin 2) * 512 + 1 * r.val = 512 * t.val + r.val; omega
    | ⟨1, _⟩ => show win0_6.index t (1 : Fin 2) * 128 + 1 * l.val = l.val; omega
  refine Eq.trans ?_ hR.symm
  show stored (blockAt m c 0 t) (blockAt m c 1 t) (blockAt m c 2 t) (blockAt m c 3 t) (blockAt m c 4 t) (blockAt m c 5 t) (ix2 r l) = _
  by_cases hl : l.val < 64
  · have e1 : l = (⟨(⟨l.val, hl⟩ : Fin 64).val, by omega⟩ : Fin 128) := Fin.ext rfl
    rw [e1]
    exact stored_even_at m c t r ⟨l.val, hl⟩
  · have hl' : l.val - 64 < 64 := by have := l.isLt; omega
    have e1 : l = (⟨64 + (⟨l.val - 64, hl'⟩ : Fin 64).val, by have := l.isLt; omega⟩ : Fin 128) := Fin.ext (by show l.val = 64 + (l.val - 64); omega)
    rw [e1]
    exact stored_odd_at m c t r ⟨l.val - 64, hl'⟩

/-- An index of the written array is in point `t`'s block iff each coordinate is in the block's range on its axis. -/
theorem mem_out_blk (t : Fin cfg0.N) (i : S8192x128.Idx) :
    i ∈ ((cfg0.win 6).blk t).view.set ↔ ∀ a : Fin 2, win0_6.index t a * S512x128.size a ≤ (i a).val ∧ (i a).val < win0_6.index t a * S512x128.size a + S512x128.size a := by
  show i ∈ ((View.whole main_call0_v3).slice (win0_6.rect t)).set ↔ _
  rw [View.set_slice_whole, Rect.mem_set_unit]
  exact Iff.rfl

/-- Every index is in some point's block: row `R` is in point `R / 512`'s. -/
theorem out_covered (i : S8192x128.Idx) :
    ∃ t : Fin cfg0.N, (cfg0.win 6).flush t = true ∧ i ∈ ((cfg0.win 6).blk t).view.set := by
  have hi0 : (i 0).val < 8192 := idx2_lt0 i
  have hi1 : (i 1).val < 128 := idx2_lt1 i
  have hN : cfg0.N = 16 := N_0
  have hq : (i 0).val / 512 < cfg0.N := by rw [hN]; omega
  obtain ⟨-, -, -, -, -, -, -, -, -, -, -, -, e60, e61⟩ := point_facts ⟨(i 0).val / 512, hq⟩
  refine ⟨⟨(i 0).val / 512, hq⟩, flush0_6 _, ?_⟩
  rw [mem_out_blk]
  intro a
  match a with
  | ⟨0, _⟩ =>
    show win0_6.index ⟨(i 0).val / 512, hq⟩ (0 : Fin 2) * 512 ≤ (i 0).val ∧ (i 0).val < win0_6.index ⟨(i 0).val / 512, hq⟩ (0 : Fin 2) * 512 + 512
    rw [e60]; show (i 0).val / 512 * 512 ≤ (i 0).val ∧ (i 0).val < (i 0).val / 512 * 512 + 512; omega
  | ⟨1, _⟩ =>
    show win0_6.index ⟨(i 0).val / 512, hq⟩ (1 : Fin 2) * 128 ≤ (i 1).val ∧ (i 1).val < win0_6.index ⟨(i 0).val / 512, hq⟩ (1 : Fin 2) * 128 + 128
    rw [e61]; omega

/-- THE WRITTEN ARRAY after the run. -/
theorem written_eq (c : Dev nD) :
    (dats m 0 c).arrAt 6 cfg0.N = paired (tokensIn m c) (gateIn m c) (biasIn m c) :=
  (dats m 0 c).arrAt_eq_of_cover 6 _ (fun t _ => written_at m c t) out_covered

end Cert.KernelIdeal.Router

end
-- ==== Proof.RouterHost.lean ====
/-
  The host's views, and the result as the router's gate.

  Before the region the token array is viewed row-major with two tokens per row: paired row `R` is token 2·R in its first
  2048 columns and token 2·R + 1 in its last 2048; the bias row is the bias twice. After the region the written array is
  viewed row-major with one token per row: token `n`'s row is lanes 64·(n mod 2) … 64·(n mod 2) + 63 of paired row n / 2.
  With the 2048-sum taken as its two halves, each group of lanes of the written array is its token's gate.
-/
import proofs.«112521_g76192719831303_cont_9to1_m_326_33_alg».proof.Proof.RouterArray

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.RouterSpec

variable (m : (ℓ : Loc nD τ sig) → Buf (Elt Ideal) ℓ)

/-- The three arguments as passed. -/
def tokArg (c : Dev nD) : S16384x2048.Idx → EReal := m ((c : Thread nD τ).loc main_arg0)
def gateArg (c : Dev nD) : S64x2048.Idx → EReal := m ((c : Thread nD τ).loc main_arg1)
def biasArg (c : Dev nD) : S64.Idx → EReal := m ((c : Thread nD τ).loc main_arg2)

/-! ## The host operations' results -/

theorem tokensIn_eq (c : Dev nD) :
    tokensIn m c = shapeCast S8192x4096 (tokArg m c) shapeCasts_S16384x2048_S8192x4096 := by
  unfold tokensIn tokArg
  show StableHlo.after hostOps0 (fun b => m (c, b)) (Proc.devRef .tc main_call0_v0) = _
  after_results
  rfl

theorem gateIn_eq (c : Dev nD) : gateIn m c = gateArg m c := entry_arg1 m c

theorem biasIn_eq (c : Dev nD) :
    biasIn m c = shapeCast S1x128 (concatenate S128 0 [⟨S64, biasArg m c⟩, ⟨S64, biasArg m c⟩] concatenates_S64_S64_S128_d0)
      shapeCasts_S128_S1x128 := by
  unfold biasIn biasArg
  show StableHlo.after hostOps0 (fun b => m (c, b)) (Proc.devRef .tc main_call0_v2) = _
  after_results
  rfl

theorem resultAt_eq (c : Dev nD) :
    resultAt m c = shapeCast S16384x64 (paired (tokensIn m c) (gateIn m c) (biasIn m c)) shapeCasts_S8192x128_S16384x64 := by
  unfold resultAt atEnd0
  show StableHlo.after hostOps1 (atExit0 m c) (Proc.devRef .tc main_v0) = _
  after_results
  rw [atExit0_written, written_eq]
  rfl

/-! ## The views at coordinates -/

theorem tokens_first (c : Dev nD) (R : Fin 8192) (k : Fin 2048) :
    tokensIn m c (ix2 R (⟨k.val, by have := k.isLt; omega⟩ : Fin 4096))
      = tokArg m c (ix2 (⟨2 * R.val, by have := R.isLt; omega⟩ : Fin 16384) k) := by
  rw [tokensIn_eq]
  exact shapeCast_apply _ _ _ _ (by
    rw [Shape.rowMajor_val_two, Shape.rowMajor_val_two]
    show 2 * R.val * 2048 + k.val = R.val * 4096 + k.val
    omega)

theorem tokens_second (c : Dev nD) (R : Fin 8192) (k : Fin 2048) :
    tokensIn m c (ix2 R (⟨2048 + k.val, by have := k.isLt; omega⟩ : Fin 4096))
      = tokArg m c (ix2 (⟨2 * R.val + 1, by have := R.isLt; omega⟩ : Fin 16384) k) := by
  rw [tokensIn_eq]
  exact shapeCast_apply _ _ _ _ (by
    rw [Shape.rowMajor_val_two, Shape.rowMajor_val_two]
    show (2 * R.val + 1) * 2048 + k.val = R.val * 4096 + (2048 + k.val)
    omega)

theorem bias_first (c : Dev nD) (e : Fin 64) :
    biasIn m c (ix2 (0 : Fin 1) (⟨e.val, by have := e.isLt; omega⟩ : Fin 128)) = biasArg m c (ix1 e) := by
  rw [biasIn_eq, shapeCast_a_1a_apply]
  exact concatenate_pair_apply_left (t := S128) (s₁ := S64) (s₂ := S64) (0 : Fin 1) _ _ concatenates_S64_S64_S128_d0
    (ix1 (⟨e.val, by have := e.isLt; omega⟩ : Fin 128)) rfl (ix1 e) (fun b => by match b with | ⟨0, _⟩ => rfl)

theorem bias_second (c : Dev nD) (e : Fin 64) :
    biasIn m c (ix2 (0 : Fin 1) (⟨64 + e.val, by have := e.isLt; omega⟩ : Fin 128)) = biasArg m c (ix1 e) := by
  rw [biasIn_eq, shapeCast_a_1a_apply]
  exact concatenate_pair_apply_right (t := S128) (s₁ := S64) (s₂ := S64) (0 : Fin 1) _ _ concatenates_S64_S64_S128_d0
    (ix1 (⟨64 + e.val, by have := e.isLt; omega⟩ : Fin 128)) rfl rfl (ix1 e)
    (fun b hb => by match b with | ⟨0, _⟩ => exact absurd rfl hb)
    (by show e.val + 64 = 64 + e.val; omega)

/-! ## Each group of lanes is its token's row of logits -/

theorem evenLogit_eq (c : Dev nD) (R : Fin 8192) (e : Fin 64) :
    evenLogit (tokensIn m c) (gateIn m c) (biasIn m c) R e
      = logit (tokArg m c) (gateArg m c) (biasArg m c) (⟨2 * R.val, by have := R.isLt; omega⟩ : Fin 16384) e := by
  unfold evenLogit logit
  rw [sum_two_halves, bias_first, gateIn_eq]
  refine congrArg₂ (· + ·) (congrArg₂ (· + ·) (Finset.sum_congr rfl fun k _ => ?_) (Finset.sum_congr rfl fun k _ => ?_)) rfl
  · exact congrArg (· * _) (tokens_first m c R ⟨k.val, by have := k.isLt; omega⟩)
  · exact congrArg (· * _) (tokens_first m c R ⟨1024 + k.val, by have := k.isLt; omega⟩)

theorem oddLogit_eq (c : Dev nD) (R : Fin 8192) (e : Fin 64) :
    oddLogit (tokensIn m c) (gateIn m c) (biasIn m c) R e
      = logit (tokArg m c) (gateArg m c) (biasArg m c) (⟨2 * R.val + 1, by have := R.isLt; omega⟩ : Fin 16384) e := by
  unfold oddLogit logit
  rw [sum_two_halves, bias_second, gateIn_eq]
  refine congrArg₂ (· + ·) (congrArg₂ (· + ·) (Finset.sum_congr rfl fun k _ => ?_) (Finset.sum_congr rfl fun k _ => ?_)) rfl
  · exact congrArg (· * _) (tokens_second m c R ⟨k.val, by have := k.isLt; omega⟩)
  · refine congrArg (· * _) ((congrArg (fun j => tokensIn m c (ix2 R j))
      (Fin.ext (by show 3072 + k.val = 2048 + (1024 + k.val); omega))).trans
      (tokens_second m c R ⟨1024 + k.val, by have := k.isLt; omega⟩))

/-! ## The result -/

/-- THE RESULT is the gate of the three arguments. -/
theorem result_is_gate (c : Dev nD) :
    resultAt m c = gate (tokArg m c) (gateArg m c) (biasArg m c) := by
  rw [resultAt_eq]
  funext i
  obtain ⟨n, e, rfl⟩ : ∃ (n : Fin 16384) (e : Fin 64), i = ix2 n e := ⟨i 0, i 1, eq_ix2 i⟩
  have hn := n.isLt
  have he := e.isLt
  unfold gate
  by_cases hp : n.val % 2 = 0
  · refine (shapeCast_apply _ _ (ix2 n e) (ix2 (⟨n.val / 2, by omega⟩ : Fin 8192) (⟨e.val, by omega⟩ : Fin 128)) (by
      rw [Shape.rowMajor_val_two, Shape.rowMajor_val_two]
      show n.val / 2 * 128 + e.val = n.val * 64 + e.val
      omega)).trans ?_
    unfold paired
    rw [dif_pos (show ((ix2 (⟨n.val / 2, by omega⟩ : Fin 8192) (⟨e.val, by omega⟩ : Fin 128) : S8192x128.Idx) 1).val < 64 from he)]
    refine congrArg₂ softRow (funext fun e' => ?_) (Fin.ext rfl)
    refine (evenLogit_eq m c ⟨n.val / 2, by omega⟩ e').trans ?_
    exact congrArg (fun n' => logit (tokArg m c) (gateArg m c) (biasArg m c) n' e') (Fin.ext (by show 2 * (n.val / 2) = n.val; omega))
  · refine (shapeCast_apply _ _ (ix2 n e) (ix2 (⟨n.val / 2, by omega⟩ : Fin 8192) (⟨64 + e.val, by omega⟩ : Fin 128)) (by
      rw [Shape.rowMajor_val_two, Shape.rowMajor_val_two]
      show n.val / 2 * 128 + (64 + e.val) = n.val * 64 + e.val
      omega)).trans ?_
    unfold paired
    rw [dif_neg (show ¬ ((ix2 (⟨n.val / 2, by omega⟩ : Fin 8192) (⟨64 + e.val, by omega⟩ : Fin 128) : S8192x128.Idx) 1).val < 64 from by
      show ¬ (64 + e.val < 64); omega)]
    refine congrArg₂ softRow (funext fun e' => ?_) (Fin.ext (by show 64 + e.val - 64 = e.val; omega))
    refine (oddLogit_eq m c ⟨n.val / 2, by omega⟩ e').trans ?_
    exact congrArg (fun n' => logit (tokArg m c) (gateArg m c) (biasArg m c) n' e') (Fin.ext (by show 2 * (n.val / 2) + 1 = n.val; omega))

end Cert.KernelIdeal.Router

end
-- ==== Proof.RouterRef.lean ====
/-
  The reference's result, read index by index, is the router's gate.

  The reference forms every token's 64 logits (the features against the transposed gate matrix, plus the bias spread over
  the tokens), takes each row's maximum — once more against minus infinity, which changes nothing —, exponentiates the
  logits less it, sums each row from zero, and divides.
-/
import proofs.«112521_g76192719831303_cont_9to1_m_326_33_alg».proof.Proof.Gen.ReferenceIdeal.Read
import proofs.«112521_g76192719831303_cont_9to1_m_326_33_alg».proof.Proof.RouterSpec
import Idealize.ShloMosaic.PureOps.Ideal.Laws

set_option maxRecDepth 16384

noncomputable section

namespace Cert.ReferenceIdeal.RefGate

open Cert.ReferenceIdeal Cert.ReferenceIdeal.Gen Cert.ReferenceIdeal.Read
open Idealize.ShloMosaic Idealize.ShloMosaic.ValueIdx
open Cert.RouterSpec

/-- The reference's biased logits. -/
theorem logits_at (x0 : (⟨S16384x2048, .f32⟩ : BufTy).Contents (Elt Ideal)) (x1 : (⟨S64x2048, .f32⟩ : BufTy).Contents (Elt Ideal)) (x2 : (⟨S64, .f32⟩ : BufTy).Contents (Elt Ideal)) (n : Fin 16384) (e : Fin 64) :
    val_main_v4 (F := Ideal) x0 x1 x2 (ix2 n e) = logit x0 x1 x2 n e := by
  rw [val_main_v4_apply, val_main_v1_apply, val_main_v3_apply, val_main_v2_apply]
  unfold logit
  refine congrArg₂ (· + ·) (Finset.sum_congr rfl fun k _ => ?_) ?_
  · rw [val_main_v0_apply]
    refine congrArg₂ (· * ·) (congrArg x0 (funext fun a => Fin.ext (by match a with | ⟨0, _⟩ => rfl | ⟨1, _⟩ => rfl)))
      (congrArg x1 (funext fun a => Fin.ext (by match a with | ⟨0, _⟩ => rfl | ⟨1, _⟩ => rfl)))
  · exact congrArg x2 (funext fun a => Fin.ext (by match a with | ⟨0, _⟩ => rfl))

/-- Each row's maximum: the fold from minus infinity, and once more against minus infinity. -/
theorem top_at (x0 : (⟨S16384x2048, .f32⟩ : BufTy).Contents (Elt Ideal)) (x1 : (⟨S64x2048, .f32⟩ : BufTy).Contents (Elt Ideal)) (x2 : (⟨S64, .f32⟩ : BufTy).Contents (Elt Ideal)) (n : Fin 16384) :
    val_main_v7 (F := Ideal) x0 x1 x2 (ix1 n) = rowTop (logit x0 x1 x2 n) := by
  have h5 : val_main_v5 (F := Ideal) x0 x1 x2 (ix1 n) = rowTop (logit x0 x1 x2 n) := by
    unfold val_main_v5
    refine (Host.reduce_eq_fold_single (α := Ideal .f32) (s := S16384x64) (t := S16384) (a := (1 : Fin 2)) (u := S_)
      (FloatOps.maximumf (F := Ideal) (φ := .f32)) (fun i => val_main_v4 (F := Ideal) x0 x1 x2 i) (fun i => val_main_cst (F := Ideal) i)
      reducesTo_S16384x64_S16384_d1 (by decide) h_S_ (ix1 n)).trans ?_
    unfold rowTop
    show (Finset.univ : Finset (Fin 64)).fold max floorVal _ = _
    refine congrArg (fun f => (Finset.univ : Finset (Fin 64)).fold max floorVal f) (funext fun e => ?_)
    exact (congrArg (val_main_v4 (F := Ideal) x0 x1 x2) (funext fun a => Fin.ext (by match a with | ⟨0, _⟩ => rfl | ⟨1, _⟩ => rfl))).trans
      (logits_at x0 x1 x2 n e)
  rw [val_main_v7_apply, h5]
  exact max_floor_rowTop _

/-- The exponentials of the logits less the row's maximum. -/
theorem expo_at (x0 : (⟨S16384x2048, .f32⟩ : BufTy).Contents (Elt Ideal)) (x1 : (⟨S64x2048, .f32⟩ : BufTy).Contents (Elt Ideal)) (x2 : (⟨S64, .f32⟩ : BufTy).Contents (Elt Ideal)) (n : Fin 16384) (e : Fin 64) :
    val_main_v11 (F := Ideal) x0 x1 x2 (ix2 n e) = Ideal.exp (logit x0 x1 x2 n e - rowTop (logit x0 x1 x2 n)) := by
  have hi : idx_main_v8 (idx_main_v9 (ix2 n e)) = ix1 n := funext fun a => Fin.ext (by match a with | ⟨0, _⟩ => rfl)
  rw [val_main_v11_apply, val_main_v10_apply, val_main_v9_apply, val_main_v8_apply, hi, top_at, logits_at]
  rfl

/-- The result at token `n` and expert `e`. -/
theorem result_at (x0 : (⟨S16384x2048, .f32⟩ : BufTy).Contents (Elt Ideal)) (x1 : (⟨S64x2048, .f32⟩ : BufTy).Contents (Elt Ideal)) (x2 : (⟨S64, .f32⟩ : BufTy).Contents (Elt Ideal)) (n : Fin 16384) (e : Fin 64) :
    val_main_v15 (F := Ideal) x0 x1 x2 (ix2 n e) = softRow (logit x0 x1 x2 n) e := by
  have hi : idx_main_v13 (idx_main_v14 (ix2 n e)) = ix1 n := funext fun a => Fin.ext (by match a with | ⟨0, _⟩ => rfl)
  rw [val_main_v15_apply, val_main_v14_apply, val_main_v13_apply, hi, val_main_v12_apply, expo_at]
  unfold softRow
  show Ideal.div _ (Ideal.ofBits .f32 0x00000000#32 + _) = _
  rw [Ideal.ofBits_zero_f32, zero_add]
  refine congrArg (Ideal.div _) (Finset.sum_congr rfl fun k _ => ?_)
  exact (congrArg (val_main_v11 (F := Ideal) x0 x1 x2) (funext fun a => Fin.ext (by match a with | ⟨0, _⟩ => rfl | ⟨1, _⟩ => rfl))).trans
    (expo_at x0 x1 x2 n k)

/-- The reference's result is the gate of its arguments. -/
theorem result_eq (x0 : (⟨S16384x2048, .f32⟩ : BufTy).Contents (Elt Ideal)) (x1 : (⟨S64x2048, .f32⟩ : BufTy).Contents (Elt Ideal)) (x2 : (⟨S64, .f32⟩ : BufTy).Contents (Elt Ideal)) : val_main_v15 (F := Ideal) x0 x1 x2 = gate x0 x1 x2 := by
  funext i
  obtain ⟨n, e, rfl⟩ : ∃ (n : Fin 16384) (e : Fin 64), i = ix2 n e := ⟨i 0, i 1, eq_ix2 i⟩
  exact result_at x0 x1 x2 n e

end Cert.ReferenceIdeal.RefGate

end
-- ==== Proof.lean ====
/-
  A mixture-of-experts router: for each of 16384 tokens, the 64 gate logits (the token's 2048 features against each
  expert's row of the gate matrix, plus the expert's bias) normalised by a softmax over the experts.

  The kernel views the tokens two to a row and walks the 8192 paired rows in sixteen blocks of 512. At each block it
  forms both tokens' logits as two half-length inner products each (the low 1024 features and the high 1024, read through
  four windows on the one paired-token array), sets them side by side in 128 lanes, adds the bias doubled to 128 lanes,
  and normalises each group of 64 lanes: exponentials of the logits less the group's maximum, over their sum. The host
  then views the 8192-by-128 array it wrote as 16384-by-64. The reference computes the logits as one product against the
  transposed gate matrix, adds the bias, and applies the same normalisation row by row.

  Over the extended reals both are one function of the three arguments (`Cert.RouterSpec.gate`). The one law joining them
  is that a sum over 2048 positions is the sum over the first 1024 plus the sum over the last 1024; the reference's second
  `max` against minus infinity changes nothing; the rest is re-indexing (two tokens per row, row-major views). No finiteness
  is used: the precondition is never opened. The idealization rewrote nothing, so `preserves` is trivial. The three frames:
  the two kernel programs run to the end with their arguments unchanged (the four token windows each hold a quarter share
  of the paired-token array, which nothing writes), and the reference is a straight line of host operations.
-/
import proofs.«112521_g76192719831303_cont_9to1_m_326_33_alg».proof.Defs
import proofs.«112521_g76192719831303_cont_9to1_m_326_33_alg».proof.Proof.Gen.Kernel
import proofs.«112521_g76192719831303_cont_9to1_m_326_33_alg».proof.Proof.Gen.Kernel.Skeleton
import proofs.«112521_g76192719831303_cont_9to1_m_326_33_alg».proof.Proof.Gen.Kernel.Launch
import proofs.«112521_g76192719831303_cont_9to1_m_326_33_alg».proof.Proof.Gen.Kernel.Points
import proofs.«112521_g76192719831303_cont_9to1_m_326_33_alg».proof.Proof.Gen.KernelIdeal
import proofs.«112521_g76192719831303_cont_9to1_m_326_33_alg».proof.Proof.Gen.KernelIdeal.Skeleton
import proofs.«112521_g76192719831303_cont_9to1_m_326_33_alg».proof.Proof.Gen.KernelIdeal.Launch
import proofs.«112521_g76192719831303_cont_9to1_m_326_33_alg».proof.Proof.Gen.KernelIdeal.Points
import proofs.«112521_g76192719831303_cont_9to1_m_326_33_alg».proof.Proof.Gen.ReferenceIdeal
import proofs.«112521_g76192719831303_cont_9to1_m_326_33_alg».proof.Proof.Gen.Pre_finite_inputs
import proofs.«112521_g76192719831303_cont_9to1_m_326_33_alg».proof.Proof.Gen.ReferenceIdeal.Run
import proofs.«112521_g76192719831303_cont_9to1_m_326_33_alg».proof.Proof.Gen.ReferenceIdeal.Read
import proofs.«112521_g76192719831303_cont_9to1_m_326_33_alg».proof.Proof.WordRouterRun
import proofs.«112521_g76192719831303_cont_9to1_m_326_33_alg».proof.Proof.RouterHost
import proofs.«112521_g76192719831303_cont_9to1_m_326_33_alg».proof.Proof.RouterRef
import Idealize.ShloMosaic.Adequacy
import Idealize.ShloMosaic.Init

noncomputable section

namespace Cert.Proof

open Idealize.ShloMosaic Idealize.SL.Sem

/-- The word-level kernel runs to the end and leaves its arguments as passed. -/
theorem frame_words : @Cert.frame_Kernel Cert.Kernel.Gen.facts Cert.Pre_finite_inputs.Gen.facts :=
  fun m ρ _ => Cert.Kernel.Router.frame m ρ

/-- So does the kernel read over the extended reals. -/
theorem frame_reals : @Cert.frame_KernelIdeal Cert.KernelIdeal.Gen.facts Cert.Pre_finite_inputs.Gen.facts :=
  fun m ρ _ => Cert.KernelIdeal.Router.frame m ρ

/-- The reference is a straight line of host operations: it runs, and writes no argument. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result and the reference's are the gate of the same three arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Router.resultAt m c, Cert.KernelIdeal.Router.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefGate.result_eq, (hagree c).1, (hagree c).2.1, (hagree c).2.2]
  exact (Cert.KernelIdeal.Router.result_is_gate m c).symm

theorem claim : Cert.Claim :=
  ⟨Cert.Kernel.Gen.facts, Cert.KernelIdeal.Gen.facts, Cert.ReferenceIdeal.Gen.facts, Cert.Pre_finite_inputs.Gen.facts,
    frame_words, frame_reals, frame_reference, preserves, algebraic⟩

end Cert.Proof

end
